-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S512x512 : Shape := ⟨2, ![512, 512]⟩
abbrev S128x512 : Shape := ⟨2, ![128, 512]⟩
abbrev S128x128 : Shape := ⟨2, ![128, 128]⟩
abbrev S8x512 : Shape := ⟨2, ![8, 512]⟩
abbrev S8x1x512 : Shape := ⟨3, ![8, 1, 512]⟩
abbrev S1x128x512 : Shape := ⟨3, ![1, 128, 512]⟩
abbrev S8x128x512 : Shape := ⟨3, ![8, 128, 512]⟩
abbrev S8x128 : Shape := ⟨2, ![8, 128]⟩
abbrev S262144 : Shape := ⟨1, ![262144]⟩
abbrev S_ : Shape := ⟨0, ![]⟩

abbrev nBuf : Space → Nat
  | .hbm => 22
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S262144, .f32⟩
  | .hbm, ⟨5, _⟩ => ⟨S262144, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S262144, .f32⟩
  | .hbm, ⟨11, _⟩ => ⟨S262144, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S262144, .f32⟩
  | .hbm, ⟨17, _⟩ => ⟨S262144, .f32⟩
  | .hbm, ⟨18, _⟩ => ⟨S262144, .f32⟩
  | .hbm, ⟨19, _⟩ => ⟨S262144, .f32⟩
  | .hbm, ⟨20, _⟩ => ⟨S_, .f32⟩
  | .hbm, ⟨21, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32 : BitVec 32 := 8#32
  let v4 : BitVec 32 := Scalar.muli arg8 c8_i32
  v4
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v4 : BitVec 32 := Scalar.muli arg8 c8_i32
  let v5 : BitVec 32 := v4
  let v6 : Index := Scalar.indexCast v5
  let c0_8 : Index := 0#32
  ![v6.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32 : BitVec 32 := 8#32
  let v4 : BitVec 32 := Scalar.muli arg8 c8_i32
  let v5 : BitVec 32 := v4
  let v21 : Index := Scalar.indexCast v5
  let c0_11 : Index := 0#32
  ![v21.toNat, 0]
@[reducible] def k0_t2_loop : Scf.Loop 32 :=
  let c0_i32_4 : BitVec 32 := 0#32
  let c16_i32_5 : BitVec 32 := 16#32
  let v3 : BitVec 32 := Scalar.addi c0_i32_4 c16_i32_5
  let c1_i32_6 : BitVec 32 := 1#32
  ⟨c0_i32_4, v3, c1_i32_6⟩
def k0_mult2 (k0_t2 : Fin k0_t2_loop.trips) : BitVec 32 :=
  let c0_i32_4 : BitVec 32 := 0#32
  let c1_i32_6 : BitVec 32 := 1#32
  let arg8 : BitVec 32 := Scf.iv c0_i32_4 c1_i32_6 k0_t2
  let c8_i32 : BitVec 32 := 8#32
  let v4 : BitVec 32 := Scalar.muli arg8 c8_i32
  v4
def k0_off3 (k0_t2 : Fin k0_t2_loop.trips) : Fin 2 → Nat :=
  let c0_i32_4 : BitVec 32 := 0#32
  let c1_i32_6 : BitVec 32 := 1#32
  let arg8 : BitVec 32 := Scf.iv c0_i32_4 c1_i32_6 k0_t2
  let c8_i32 : BitVec 32 := 8#32
  let v4 : BitVec 32 := Scalar.muli arg8 c8_i32
  let v5 : BitVec 32 := v4
  let v6 : Index := Scalar.indexCast v5
  let c0_8 : Index := 0#32
  ![v6.toNat, 0]
def k0_off4 (k0_t2 : Fin k0_t2_loop.trips) : Fin 2 → Nat :=
  let c0_i32_4 : BitVec 32 := 0#32
  let c1_i32_6 : BitVec 32 := 1#32
  let arg8 : BitVec 32 := Scf.iv c0_i32_4 c1_i32_6 k0_t2
  let c8_i32 : BitVec 32 := 8#32
  let v4 : BitVec 32 := Scalar.muli arg8 c8_i32
  let v5 : BitVec 32 := v4
  let v21 : Index := Scalar.indexCast v5
  let c0_11 : Index := 0#32
  ![v21.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S128x512_S128x512_0_0 : ∀ a, (![0, 0] : Fin 2 → Nat) a + S128x512.size a ≤ S128x512.size a
  h_S128x512 : 0 < S128x512.numel
  h_S8x512 : 0 < S8x512.numel
  shapeCasts_S8x512_S8x1x512 : S8x512.ShapeCasts S8x1x512
  shapeCasts_S128x512_S1x128x512 : S128x512.ShapeCasts S1x128x512
  broadcasts_S8x1x512_S8x128x512 : S8x1x512.Broadcasts S8x128x512
  broadcasts_S1x128x512_S8x128x512 : S1x128x512.Broadcasts S8x128x512
  reduces_S8x128x512_S8x128 : S8x128x512.Reduces [2] S8x128
  h_S8x128 : 0 < S8x128.numel
  shapeCasts_S512x512_S262144 : S512x512.ShapeCasts S262144
  reducesTo_S262144_S_d0 : S262144.ReducesTo [0] S_
  h_S_ : 0 < S_.numel
  bcast_S_S262144 : S_.BroadcastsInDim S262144 (![] : Fin 0 → Fin S262144.rank)
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x512.size a ≤ S128x512.size a
  k0_off2_inb : ∀ k0_t1 : Fin k0_t1_loop.trips, ∀ a, (k0_off2 k0_t1) a + S8x128.size a ≤ S128x128.size a
  k0_t2_ok : k0_t2_loop.OK
  k0_mult2_dvd : ∀ k0_t2 : Fin k0_t2_loop.trips, 8 ∣ (k0_mult2 k0_t2).toNat
  k0_off3_inb : ∀ k0_t2 : Fin k0_t2_loop.trips, ∀ a, (k0_off3 k0_t2) a + S8x512.size a ≤ S128x512.size a
  k0_off4_inb : ∀ k0_t2 : Fin k0_t2_loop.trips, ∀ a, (k0_off4 k0_t2) a + S8x128.size a ≤ S128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S512x512.size a
  hwx0_2 : ∀ i : grid0.Coords, EltTy.bits .f32 = 32 ∨ (Rect.block (s := S512x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S512x512.size a
  hwx0_3 : ∀ i : grid0.Coords, EltTy.bits .f32 = 32 ∨ (Rect.block (s := S512x512) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S512x512.size a
  hwx0_4 : ∀ i : grid0.Coords, EltTy.bits .f32 = 32 ∨ (Rect.block (s := S512x512) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S512x512.size a
  hwx0_5 : ∀ i : grid0.Coords, EltTy.bits .f32 = 32 ∨ (Rect.block (s := S512x512) S128x128.size (cc0_transform_5 i) (hinb0_5 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S128x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x512 : Shape := ⟨2, ![512, 512]⟩
abbrev S512x1x512 : Shape := ⟨3, ![512, 1, 512]⟩
abbrev S1x512x512 : Shape := ⟨3, ![1, 512, 512]⟩
abbrev S512x512x512 : Shape := ⟨3, ![512, 512, 512]⟩
abbrev S_ : Shape := ⟨0, ![]⟩
abbrev S262144 : Shape := ⟨1, ![262144]⟩

abbrev nBuf : Space → Nat
  | .hbm => 58
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x1x512, .f32⟩
  | .hbm, ⟨3, _⟩ => ⟨S1x512x512, .f32⟩
  | .hbm, ⟨4, _⟩ => ⟨S512x512x512, .f32⟩
  | .hbm, ⟨5, _⟩ => ⟨S512x512x512, .f32⟩
  | .hbm, ⟨6, _⟩ => ⟨S512x512x512, .f32⟩
  | .hbm, ⟨7, _⟩ => ⟨S512x512x512, .f32⟩
  | .hbm, ⟨8, _⟩ => ⟨S_, .f32⟩
  | .hbm, ⟨9, _⟩ => ⟨S512x512x512, .f32⟩
  | .hbm, ⟨10, _⟩ => ⟨S512x512x512, .i1⟩
  | .hbm, ⟨11, _⟩ => ⟨S_, .f32⟩
  | .hbm, ⟨12, _⟩ => ⟨S512x512x512, .f32⟩
  | .hbm, ⟨13, _⟩ => ⟨S512x512x512, .f32⟩
  | .hbm, ⟨14, _⟩ => ⟨S512x512x512, .f32⟩
  | .hbm, ⟨15, _⟩ => ⟨S_, .f32⟩
  | .hbm, ⟨16, _⟩ => ⟨S512x512x512, .f32⟩
  | .hbm, ⟨17, _⟩ => ⟨S512x512x512, .f32⟩
  | .hbm, ⟨18, _⟩ => ⟨S512x512x512, .f32⟩
  | .hbm, ⟨19, _⟩ => ⟨S_, .f32⟩
  | .hbm, ⟨20, _⟩ => ⟨S512x512, .f32⟩
  | .hbm, ⟨21, _⟩ => ⟨S262144, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S262144, .f32⟩
  | .hbm, ⟨27, _⟩ => ⟨S262144, .f32⟩
  | .hbm, ⟨28, _⟩ => ⟨S512x1x512, .f32⟩
  | .hbm, ⟨29, _⟩ => ⟨S1x512x512, .f32⟩
  | .hbm, ⟨30, _⟩ => ⟨S512x512x512, .f32⟩
  | .hbm, ⟨31, _⟩ => ⟨S512x512x512, .f32⟩
  | .hbm, ⟨32, _⟩ => ⟨S512x512x512, .f32⟩
  | .hbm, ⟨33, _⟩ => ⟨S512x512x512, .f32⟩
  | .hbm, ⟨34, _⟩ => ⟨S_, .f32⟩
  | .hbm, ⟨35, _⟩ => ⟨S512x512x512, .f32⟩
  | .hbm, ⟨36, _⟩ => ⟨S512x512x512, .i1⟩
  | .hbm, ⟨37, _⟩ => ⟨S_, .f32⟩
  | .hbm, ⟨38, _⟩ => ⟨S512x512x512, .f32⟩
  | .hbm, ⟨39, _⟩ => ⟨S512x512x512, .f32⟩
  | .hbm, ⟨40, _⟩ => ⟨S512x512x512, .f32⟩
  | .hbm, ⟨41, _⟩ => ⟨S_, .f32⟩
  | .hbm, ⟨42, _⟩ => ⟨S512x512x512, .f32⟩
  | .hbm, ⟨43, _⟩ => ⟨S512x512x512, .f32⟩
  | .hbm, ⟨44, _⟩ => ⟨S512x512x512, .f32⟩
  | .hbm, ⟨45, _⟩ => ⟨S_, .f32⟩
  | .hbm, ⟨46, _⟩ => ⟨S512x512, .f32⟩
  | .hbm, ⟨47, _⟩ => ⟨S262144, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S262144, .f32⟩
  | .hbm, ⟨53, _⟩ => ⟨S262144, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_8 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S512x512_S1x512x512_1_2 : S512x512.BroadcastsInDim S1x512x512 (![1, 2] : Fin 2 → Fin S1x512x512.rank)
  bcast_S512x1x512_S512x512x512_0_1_2 : S512x1x512.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S512x512_d2 : S512x512x512.ReducesTo [2] S512x512
  h_S_ : 0 < S_.numel
  shapeCasts_S512x512_S262144 : S512x512.ShapeCasts S262144
  reducesTo_S262144_S_d0 : S262144.ReducesTo [0] S_
  bcast_S_S262144 : S_.BroadcastsInDim S262144 (![] : Fin 0 → Fin S262144.rank)

variable [Facts₀]

class Facts : Prop extends Facts₀ where

variable [Facts]
-- ==== Proof.WBodyRun.lean ====
/-
  The kernel body on any whole staging memrefs, at any float instance.

  The body reads the 128 "j" rows of the teacher (its second operand) whole, then in sixteen trips reads a strip of
  eight "i" rows of the first operand and stores the 8 x 128 strip of pair losses into the first result's buffer;
  then the same for the student into the second result's buffer.  Nothing else is touched.  So, run on memrefs
  holding the four input blocks and anything in the two result buffers, it ends holding the inputs as they were
  and each result buffer with a list of pieces written over what it held: the pieces of the sixteen trips.
  The lists are found by running the body once; the loops are met through their invariants (one symbolic trip each).
-/
import proofs.«148350_j43739946942958_2_alg».proof.Proof.Gen.Kernel.Loops
import proofs.«148350_j43739946942958_2_alg».proof.Proof.Gen.Kernel.Points
import proofs.«148350_j43739946942958_2_alg».proof.Proof.Gen.Kernel.Launch
import Idealize.ShloMosaic.Lib.Pipeline.Frame
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run: the pieces each result buffer ends with (last first), with the proof that from whole memrefs
    holding the four input blocks and anything in the two result buffers the body reaches its continuation holding
    the inputs unchanged and each result buffer with its pieces written. -/
noncomputable def bodyRun (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec F S128x512 .f32) :
    Σ' (L4 : List (View.Piece (Elt F) S128x128 .f32)), { L5 : List (View.Piece (Elt F) S128x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E
              (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Hand

end
-- ==== Proof.WFrameData.lean ====
/-
  The proof data of the one pipeline.

  The grid has 4 x 4 points (i, j).  Window 0 hands the body rows 128 i .. 128 i + 127 of the first argument and
  window 1 rows 128 j .. 128 j + 127 of the SAME argument; windows 2 and 3 do the same with the second argument;
  windows 4 and 5 are the (i, j) blocks of the two results.  After the body at a point each input buffer still holds
  its block and each result buffer holds the pieces the body's run wrote; the sixteen strips of eight rows tile the
  128 x 128 block, so what is read back does not depend on what the buffer held before.
  The two windows on one argument hold it at the two halves of the full share.
-/
import proofs.«148350_j43739946942958_2_alg».proof.Proof.WBodyRun
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the region is @main's first line). -/
abbrev V (c : Dev nD) (b : Ref sig .tc) : Buf (Elt F) ((c : Thread nD τ).loc b) := m ((c : Thread nD τ).loc b)

/-- Window w's block at point t, read off its array at the entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One staging buffer of each result window, through which its contents are stated (the choice does not matter). -/
abbrev VO4 : View sig .tc .vmem S128x128 .f32 := (Memref.whole cc0_stg4_0 : Memref sig .tc .vmem S128x128 .f32).view
abbrev VO5 : View sig .tc .vmem S128x128 .f32 := (Memref.whole cc0_stg5_0 : Memref sig .tc .vmem S128x128 .f32).view

/-- Each window's current staging memref at point t, as the pipeline passes it, and its wholeness. -/
abbrev ms0 (t : Fin cfg0.N) : Memref sig .tc .vmem S128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)

section Covers

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x512 .f32) (harg4 : arg4.IsWhole) (arg5 : Memref sig .tc .vmem S128x512 .f32) (harg5 : arg5.IsWhole)
  (arg6 : Memref sig .tc .vmem S128x128 .f32) (harg6 : arg6.IsWhole) (arg7 : Memref sig .tc .vmem S128x128 .f32) (harg7 : arg7.IsWhole)
  (x0 x1 x2 x3 : Vec F S128x512 .f32)

/-- The first result's pieces: sixteen strips of 8 x 128 that tile the 128 x 128 block, so they cover it. -/
theorem cover4 (y : S128x128.Idx) :
    ∃ pc ∈ (bodyRun c i arg2 harg2 arg3 harg3 arg4 harg4 arg5 harg5 arg6 harg6 arg7 harg7 x0 x1 x2 x3).1, y ∈ pc.1.set :=
  View.cover_of_tiledL (bodyRun c i arg2 harg2 arg3 harg3 arg4 harg4 arg5 harg5 arg6 harg6 arg7 harg7 x0 x1 x2 x3).1 S8x128.size (by sl_kernel_rfl) y

/-- The second result's pieces likewise. -/
theorem cover5 (y : S128x128.Idx) :
    ∃ pc ∈ (bodyRun c i arg2 harg2 arg3 harg3 arg4 harg4 arg5 harg5 arg6 harg6 arg7 harg7 x0 x1 x2 x3).2.1, y ∈ pc.1.set :=
  View.cover_of_tiledL (bodyRun c i arg2 harg2 arg3 harg3 arg4 harg4 arg5 harg5 arg6 harg6 arg7 harg7 x0 x1 x2 x3).2.1 S8x128.size (by sl_kernel_rfl) y

/-- What the run leaves in the first result's buffer: its pieces read back over junk. -/
def outBlk4 : Vec F S128x128 .f32 :=
  VO4.read (Elt F) (VO4.writes (Elt F) VO4.junk (bodyRun c i arg2 harg2 arg3 harg3 arg4 harg4 arg5 harg5 arg6 harg6 arg7 harg7 x0 x1 x2 x3).1)
/-- What the run leaves in the second result's buffer. -/
def outBlk5 : Vec F S128x128 .f32 :=
  VO5.read (Elt F) (VO5.writes (Elt F) VO5.junk (bodyRun c i arg2 harg2 arg3 harg3 arg4 harg4 arg5 harg5 arg6 harg6 arg7 harg7 x0 x1 x2 x3).2.1)

end Covers

/-- What the two result buffers hold after the body at point t: the run's contents at the point's memrefs and input blocks. -/
def outAt4 (c : Dev nD) (t : Fin cfg0.N) : Vec F S128x128 .f32 :=
  outBlk4 c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t)
def outAt5 (c : Dev nD) (t : Fin cfg0.N) : Vec F S128x128 .f32 :=
  outBlk5 c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t)

/-- The share each input window holds its array at: the two windows on one argument take the two halves. -/
abbrev shareOf : Fin 6 → PosShare TreeShare := fun w => match w with
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨_ + 6, h⟩ => absurd h (Nat.not_lt.2 (Nat.le_add_left _ _))

/-- The proof data on core c: the arrays as the region finds them; after the body at point t each input buffer at its
    block and the result buffers at what the run left; the invariant the class's (the scoped rest and the generator
    register); nothing owed; each argument's two windows at its two half shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ _ := Pipeline.ΦA spec0 c
  q := shareOf
  owed _ := 0

theorem A_eq (c : Dev nD) (w : Fin cfg0.W) : (dat m c).A w = V m c (Pipeline.arrRef spec0 w) := by dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = outAt4 m c t := by dsimp only [dat]
theorem after5 (c : Dev nD) (t : Fin cfg0.N) : (dat m c).after 5 t = outAt5 m c t := by dsimp only [dat]

theorem before0 (c : Dev nD) (t : Fin cfg0.N) (d) : (dat m c).before 0 t d = iblk m c 0 t :=
  before_in0 m (dat m c) (A_eq m c 0) (after0 m c) t d
theorem before1 (c : Dev nD) (t : Fin cfg0.N) (d) : (dat m c).before 1 t d = iblk m c 1 t :=
  before_in1 m (dat m c) (A_eq m c 1) (after1 m c) t d
theorem before2 (c : Dev nD) (t : Fin cfg0.N) (d) : (dat m c).before 2 t d = iblk m c 2 t :=
  before_in2 m (dat m c) (A_eq m c 2) (after2 m c) t d
theorem before3 (c : Dev nD) (t : Fin cfg0.N) (d) : (dat m c).before 3 t d = iblk m c 3 t :=
  before_in3 m (dat m c) (A_eq m c 3) (after3 m c) t d

end Cert.Kernel.Hand

end
-- ==== Proof.WFrameBodyOb.lean ====
/-
  The body obligation at a generic point.

  At point t the pipeline calls the body on the six current staging buffers: the four input buffers hold their blocks
  (fetched at this point or kept from an earlier one), the two result buffers hold anything.  The body's run applies;
  the invariant and the (empty) dues pass through untouched; afterwards each result buffer, read back, is what the
  proof data names, because the run's pieces cover the block.
-/
import proofs.«148350_j43739946942958_2_alg».proof.Proof.WFrameData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point t, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d)))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dat m c).Φ t.succ = (dat m c).Φ t.castSucc from rfl,
    show (dat m c).owesAt () t.succ = (dat m c).owesAt () t.castSucc from rfl,
    after0, after1, after2, after3, after4, after5]
  unfold outAt4 outAt5
  unfold outBlk4 outBlk5
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c _ _ _ _ _ _ _ _ _ _ _ _ _ _ _ _ _)
  unfold owns; iexists _; isplitr
  swap; · iexact H5
  ipureintro; exact View.read_writes_of_cover _ _ _ _ _ (cover5 c _ _ _ _ _ _ _ _ _ _ _ _ _ _ _ _ _)

/-- The library's body obligation, at every point. -/
theorem body_obligation (c : Dev nD) : BodyObligation (dat (F := F) m c) (defs₀ (F := F)) Variants.none () Set.univ := fun t => by
  rw [bigSep_W0, bigSep_W0]
  exact sound_body m c t

end Cert.Kernel.Hand

end
-- ==== Proof.WSharedArrays.lean ====
/-
  Two windows on one array: dealing the buffer at the region's entry and joining it at the exit.

  The pipeline has six windows but only four buffers behind them: the first argument is handed to windows 0 and 1,
  the second to windows 2 and 3.  The proof data hold an input array at a share of the buffer, so at the entry the
  buffer of each argument, whole at the full share, is split in two halves, one per window; at the exit the two halves,
  still at the entry contents (an input is never written), are joined again.  The two results are held whole.
-/
import proofs.«148350_j43739946942958_2_alg».proof.Proof.WFrameData
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The four buffers behind the six windows, one by one. -/
theorem arrBufs_chain (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_arg1) ↦{fullShare} V main_arg1)
          ∗ (((c : Thread nD τ).loc main_v0_0) ↦{fullShare} V main_v0_0) ∗ (((c : Thread nD τ).loc main_v0_1) ↦{fullShare} V main_v0_1)) := by
  unfold Pipeline.arrBufs
  exact bigSep_eq_bigSepL_of_eq [main_arg0, main_arg1, main_v0_0, main_v0_1] (by decide) (by decide) _

/-- The share the proof data hold window w's array at. -/
theorem share_eq (c : Dev nD) (w : Fin 6) : (dat m c).share w = shareOf w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl

/-- The proof data's arrays at contents Fn, window by window, each a whole buffer at its share. -/
theorem arrays_chain (c : Dev nD) (Fn : (w : Fin cfg0.W) → Buf (Elt F) ((cfg0.win w).arr.view.loc (c : Thread nD τ))) :
    (dat m c).arrays Fn
      = iprop((((c : Thread nD τ).loc main_arg0) ↦{fullShare.left} Fn 0) ∗ (((c : Thread nD τ).loc main_arg0) ↦{fullShare.right} Fn 1)
          ∗ (((c : Thread nD τ).loc main_arg1) ↦{fullShare.left} Fn 2) ∗ (((c : Thread nD τ).loc main_arg1) ↦{fullShare.right} Fn 3)
          ∗ (((c : Thread nD τ).loc main_v0_0) ↦{fullShare} Fn 4) ∗ (((c : Thread nD τ).loc main_v0_1) ↦{fullShare} Fn 5)) := by
  unfold Dat.arrays
  rw [bigSep_W0]
  simp only [share_eq]
  rw [(arr_whole0 0).set_eq_univ, (arr_whole0 2).set_eq_univ, (arr_whole0 4).set_eq_univ, (arr_whole0 5).set_eq_univ]

/-- ENTRY: the four buffers whole at the entry contents make the proof data's arrays at their entry contents, each
    argument's buffer split into the two half shares of its two windows. -/
theorem arrays_of_arrBufs (c : Dev nD) :
    (Pipeline.arrBufs spec0 c (V m c) : sProp 𝕄) ⊢ (dat m c).arrays ((dat m c).arrAt · 0) := by
  rw [arrBufs_chain, arrays_chain]
  iintro ⟨H0, H1, H4, H5⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H4]; · iexact H4
  iexact H5

/-- EXIT: the proof data's arrays after every write-back make the four buffers whole at any contents that have the
    two arguments as entered and the two results at what the write-backs left. -/
theorem arrBufs_of_arrays (c : Dev nD) (V' : (b : Ref sig .tc) → Buf (Elt F) ((c : Thread nD τ).loc b))
    (h0 : V' main_arg0 = V m c main_arg0) (h1 : V' main_arg1 = V m c main_arg1)
    (h4 : V' main_v0_0 = (dat m c).arrAt 4 cfg0.N) (h5 : V' main_v0_1 = (dat m c).arrAt 5 cfg0.N) :
    (dat m c).arrays ((dat m c).arrAt · cfg0.N) ⊢ (Pipeline.arrBufs spec0 c V' : sProp 𝕄) := by
  rw [arrBufs_chain, arrays_chain, h0, h1, h4, h5,
    (dat m c).arrAt_in 0 rfl _, (dat m c).arrAt_in 1 rfl _, (dat m c).arrAt_in 2 rfl _, (dat m c).arrAt_in 3 rfl _]
  iintro ⟨H0l, H0r, H1l, H1r, H4, H5⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H4]; · iexact H4
  iexact H5

end Cert.Kernel.Hand

end
-- ==== Proof.WFrameRun.lean ====
/-
  The run of @main: the kernel region, then eighteen host operations.

  Between the two segments the core holds every unscoped buffer whole at a valuation: at launch the memory's contents;
  after the region the same with the two results at what the pipeline's write-backs left; after the host operations
  their composed results on top of that.  The region is entered by splitting its four buffers off the unscoped ones
  (each argument's buffer dealt to its two windows) and left by joining them back; the generator register passes
  through the class invariant; nothing is owed.  Every weakly fair execution therefore ends with each unscoped buffer
  at the last valuation, in particular the arguments as launched and the result at the host operations' term.
-/
import proofs.«148350_j43739946942958_2_alg».proof.Proof.WFrameBodyOb
import proofs.«148350_j43739946942958_2_alg».proof.Proof.WSharedArrays
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers' contents at the segment boundaries -/

/-- Core c's buffers at launch (the region's entry). -/
abbrev W1 (c : Dev nD) : Valuation τ sig (Elt F) := fun b => m (c, b)
/-- At the region's exit: the two results at what the write-backs left, every other buffer as entered. -/
def W2 (c : Dev nD) : Valuation τ sig (Elt F) :=
  Function.update (Function.update (W1 m c) (Proc.devRef .tc main_v0_0) ((dat m c).arrAt 4 cfg0.N))
    (Proc.devRef .tc main_v0_1) ((dat m c).arrAt 5 cfg0.N)
/-- The same read at the TensorCore's references. -/
abbrev V2 (c : Dev nD) (b : Ref sig .tc) : Buf (Elt F) ((c : Thread nD τ).loc b) := W2 m c b
/-- After the host operations. -/
abbrev W3 (c : Dev nD) : Valuation τ sig (Elt F) := StableHlo.after hostOps1 (W2 m c)

theorem W2_v0_1 (c : Dev nD) : W2 m c (Proc.devRef .tc main_v0_1) = (dat m c).arrAt 5 cfg0.N := by
  unfold W2; exact Function.update_self ..
theorem W2_v0_0 (c : Dev nD) : W2 m c (Proc.devRef .tc main_v0_0) = (dat m c).arrAt 4 cfg0.N := by
  unfold W2
  rw [Function.update_of_ne (StableHlo.devRef_ne_of_ne (by decide) : (Proc.devRef .tc main_v0_0 : DevRef τ sig) ≠ Proc.devRef .tc main_v0_1)]
  exact Function.update_self ..
theorem W2_of_ne (c : Dev nD) (b : Ref sig .tc) (h0 : b ≠ main_v0_0) (h1 : b ≠ main_v0_1) :
    W2 m c (Proc.devRef .tc b) = W1 m c (Proc.devRef .tc b) := by
  unfold W2
  rw [Function.update_of_ne (StableHlo.devRef_ne_of_ne h1), Function.update_of_ne (StableHlo.devRef_ne_of_ne h0)]

/-- Off the windows' arrays the exit valuation is the entry one. -/
theorem V2_rest (c : Dev nD) (b : Ref sig .tc) (hb : b ∉ Finset.univ.image (Pipeline.arrRef spec0)) : V2 m c b = V m c b :=
  W2_of_ne m c b (fun e => hb (Finset.mem_image.mpr ⟨4, Finset.mem_univ _, e.symm⟩))
    (fun e => hb (Finset.mem_image.mpr ⟨5, Finset.mem_univ _, e.symm⟩))

/-! ## What the host operations write -/

theorem hostOps1_fresh : (hostOps1 : List (HloOp τ sig (Elt F))).Forall fun op => op.fresh = ∅ := by
  simp only [List.Forall]; repeat' constructor
/-- The references the host operations write. -/
abbrev hostOps1_W : List (Ref sig .tc) :=
  [main_v1, main_v2, main_cst, main_v3, main_cst_0, main_v4, main_v5, main_v6, main_cst_1, main_v7, main_cst_2, main_v8, main_v9,
    main_v10, main_v11, main_v12, main_cst_3, main_v13]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes,
      Finset.singleton_subset_iff, List.mem_toFinset]; exact List.mem_map_of_mem (by decide))
theorem W3_of (c : Dev nD) (r : Ref sig .tc) (h : r ∉ hostOps1_W) : W3 m c r = W2 m c r :=
  StableHlo.after_of_writes_sub hostOps1 _ hostOps1_writes h

theorem W3_main_arg0 (c : Dev nD) : W3 m c main_arg0 = m ((c : Thread nD τ).loc main_arg0) :=
  (W3_of m c main_arg0 (by decide)).trans (W2_of_ne m c main_arg0 (by decide) (by decide))
theorem W3_main_arg1 (c : Dev nD) : W3 m c main_arg1 = m ((c : Thread nD τ).loc main_arg1) :=
  (W3_of m c main_arg1 (by decide)).trans (W2_of_ne m c main_arg1 (by decide) (by decide))

/-! ## The proof data family and what rides beside the buffers -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
abbrev Lz : GSem nD τ sig → Finset Unit := fun _ => ∅
abbrev lvz : GSem nD τ sig → Unit → ℕ := fun _ _ => 0
/-- The generator register at some state and the core owing nothing. -/
abbrev Rst (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers at the entry valuation are the four buffers behind the windows and the rest. -/
theorem held_split (c : Dev nD) (W : Valuation τ sig (Elt F)) :
    (StableHlo.held (c : Thread nD τ) (Pipeline.ucRefs τ sig) W : sProp 𝕄)
      = iprop((Pipeline.arrBufs spec0 c (fun b => W b) : sProp 𝕄) ∗ Pipeline.unscopedRest spec0 c (fun b => W b)) := by
  rw [← Pipeline.unscopedBufs_held (Ix := Unit) (Name := ℕ) (U := UR sig nD τ) (Lvl := ℕ) c W]
  exact Pipeline.unscopedBufs_split₀ cfgs (0 : Fin 1) winFacts₀0.arr_unscoped c (fun b => W b)

set_option backward.isDefEq.respectTransparency.types false in
/-- THE REGION over the thread state: entered from every unscoped buffer at the launch contents, left at the exit
    valuation. -/
def reg0 : Pipeline.RegionSeg (pcfgs (F := F)) adm (pdats m) () defs₀ 𝒱₀ Lz lvz 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none, held_split]
    iintro ⟨⟨⟨Ha, Hrest⟩, Hp, HO⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_split]
    have hjoin := arrBufs_of_arrays m c (V2 m c) (W2_of_ne m c main_arg0 (by decide) (by decide)) (W2_of_ne m c main_arg1 (by decide) (by decide))
      (W2_v0_0 m c) (W2_v0_1 m c)
    have hrest : (Pipeline.unscopedRest (Ix := Unit) (Name := ℕ) (U := UR sig nD τ) (Lvl := ℕ) spec0 c (V2 m c) : sProp 𝕄)
        = Pipeline.unscopedRest spec0 c (V m c) := by
      unfold Pipeline.unscopedRest
      exact bigSep_congr fun b hb => by rw [V2_rest m c b (Finset.mem_sdiff.mp hb).2]
    iintro ⟨Ha, HO, HY, Hrest⟩
    imodintro
    isplitl [Ha Hrest]
    · isplitl [Ha]; · iapply hjoin; iexact Ha
      rw [hrest]; iexact Hrest
    isplitl [HY]; · iexact HY
    unfold Pipeline.Dat.owesAt Pipeline.owesWithin
    icases HO with ⟨%W, -, HO⟩; iexists W; iexact HO

/-! ## @main as two segments, and the launch -/

/-- The eighteen host operations as a segment over the unscoped buffers from the region's exit valuation. -/
abbrev hseg1 : Pipeline.HostSeg (Name := ℕ) (U := UR sig nD τ) (pcfgs (F := F)) defs₀ 𝒱₀ Lz lvz :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Rst

/-- @main's two segments in order. -/
abbrev segs : List (Pipeline.Seg (pcfgs (F := F)) adm (pdats m) () defs₀ 𝒱₀ Lz lvz) :=
  [ .region (reg0 m), .host (hseg1 m) ]

/-- @main is the run of the two segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer of every core at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W1 m c) ∗ Rst c))
    (Tₙ := fun c => iprop(StableHlo.held (c : Thread nD τ) (Pipeline.ucRefs τ sig) (W3 m c) ∗ ∃ r, prngReg c r))
    (hch := ⟨fun _ => .rfl, fun _ => .rfl, fun c => by
      show (iprop(StableHlo.held (c : Thread nD τ) (Pipeline.ucRefs τ sig) (W3 m c) ∗ Rst c) : sProp 𝕄) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W1 m c)
        from Pipeline.unscopedBufs_held c (W1 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

/-- The run with the result named: the result buffer ends at the host operations' term over the region's exit
    valuation, the arguments as launched. -/
theorem run_result : θ_run defs (onTc (τ := τ) (main (F := F))) ⟨m, fun _ => 0, ρ⟩ (fun r => ∀ c : Dev nD,
      r.2.mem ((c.tc : Thread nD τ).loc main_v13) = W3 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v13 (by decide)),
     (h c _ (mem_uc main_arg0 (by decide))).trans (W3_main_arg0 m c),
     (h c _ (mem_uc main_arg1 (by decide))).trans (W3_main_arg1 m c)⟩) (run_all m ρ)

end Cert.Kernel.Hand

end
-- ==== Proof.BodyRun.lean ====
/-
  The kernel body on any whole staging memrefs, at any float instance.

  The body reads the 128 "j" rows of the teacher (its second operand) whole, then in sixteen trips reads a strip of
  eight "i" rows of the first operand and stores the 8 x 128 strip of pair losses into the first result's buffer;
  then the same for the student into the second result's buffer.  Nothing else is touched.  So, run on memrefs
  holding the four input blocks and anything in the two result buffers, it ends holding the inputs as they were
  and each result buffer with a list of pieces written over what it held: the pieces of the sixteen trips.
  The lists are found by running the body once; the loops are met through their invariants (one symbolic trip each).
-/
import proofs.«148350_j43739946942958_2_alg».proof.Proof.Gen.KernelIdeal.Loops
import proofs.«148350_j43739946942958_2_alg».proof.Proof.Gen.KernelIdeal.Points
import proofs.«148350_j43739946942958_2_alg».proof.Proof.Gen.KernelIdeal.Launch
import Idealize.ShloMosaic.Lib.Pipeline.Frame
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run: the pieces each result buffer ends with (last first), with the proof that from whole memrefs
    holding the four input blocks and anything in the two result buffers the body reaches its continuation holding
    the inputs unchanged and each result buffer with its pieces written. -/
noncomputable def bodyRun (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec F S128x512 .f32) :
    Σ' (L4 : List (View.Piece (Elt F) S128x128 .f32)), { L5 : List (View.Piece (Elt F) S128x128 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E
              (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Hand

end
-- ==== Proof.FrameData.lean ====
/-
  The proof data of the one pipeline.

  The grid has 4 x 4 points (i, j).  Window 0 hands the body rows 128 i .. 128 i + 127 of the first argument and
  window 1 rows 128 j .. 128 j + 127 of the SAME argument; windows 2 and 3 do the same with the second argument;
  windows 4 and 5 are the (i, j) blocks of the two results.  After the body at a point each input buffer still holds
  its block and each result buffer holds the pieces the body's run wrote; the sixteen strips of eight rows tile the
  128 x 128 block, so what is read back does not depend on what the buffer held before.
  The two windows on one argument hold it at the two halves of the full share.
-/
import proofs.«148350_j43739946942958_2_alg».proof.Proof.BodyRun
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The core's buffers when the region is entered: as launched (the region is @main's first line). -/
abbrev V (c : Dev nD) (b : Ref sig .tc) : Buf (Elt F) ((c : Thread nD τ).loc b) := m ((c : Thread nD τ).loc b)

/-- Window w's block at point t, read off its array at the entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, fetched there or not, for any proof data whose
    array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One staging buffer of each result window, through which its contents are stated (the choice does not matter). -/
abbrev VO4 : View sig .tc .vmem S128x128 .f32 := (Memref.whole cc0_stg4_0 : Memref sig .tc .vmem S128x128 .f32).view
abbrev VO5 : View sig .tc .vmem S128x128 .f32 := (Memref.whole cc0_stg5_0 : Memref sig .tc .vmem S128x128 .f32).view

/-- Each window's current staging memref at point t, as the pipeline passes it, and its wholeness. -/
abbrev ms0 (t : Fin cfg0.N) : Memref sig .tc .vmem S128x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x128 .f32 := win0_5.stage (cfg0.slots t 5)
abbrev hs5 (t : Fin cfg0.N) : (ms5 t).IsWhole := hstage0_5 ((cfg0.slots t 5).cast nbuf0_5)

section Covers

variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x512 .f32) (harg4 : arg4.IsWhole) (arg5 : Memref sig .tc .vmem S128x512 .f32) (harg5 : arg5.IsWhole)
  (arg6 : Memref sig .tc .vmem S128x128 .f32) (harg6 : arg6.IsWhole) (arg7 : Memref sig .tc .vmem S128x128 .f32) (harg7 : arg7.IsWhole)
  (x0 x1 x2 x3 : Vec F S128x512 .f32)

/-- The first result's pieces: sixteen strips of 8 x 128 that tile the 128 x 128 block, so they cover it. -/
theorem cover4 (y : S128x128.Idx) :
    ∃ pc ∈ (bodyRun c i arg2 harg2 arg3 harg3 arg4 harg4 arg5 harg5 arg6 harg6 arg7 harg7 x0 x1 x2 x3).1, y ∈ pc.1.set :=
  View.cover_of_tiledL (bodyRun c i arg2 harg2 arg3 harg3 arg4 harg4 arg5 harg5 arg6 harg6 arg7 harg7 x0 x1 x2 x3).1 S8x128.size (by sl_kernel_rfl) y

/-- The second result's pieces likewise. -/
theorem cover5 (y : S128x128.Idx) :
    ∃ pc ∈ (bodyRun c i arg2 harg2 arg3 harg3 arg4 harg4 arg5 harg5 arg6 harg6 arg7 harg7 x0 x1 x2 x3).2.1, y ∈ pc.1.set :=
  View.cover_of_tiledL (bodyRun c i arg2 harg2 arg3 harg3 arg4 harg4 arg5 harg5 arg6 harg6 arg7 harg7 x0 x1 x2 x3).2.1 S8x128.size (by sl_kernel_rfl) y

/-- What the run leaves in the first result's buffer: its pieces read back over junk. -/
def outBlk4 : Vec F S128x128 .f32 :=
  VO4.read (Elt F) (VO4.writes (Elt F) VO4.junk (bodyRun c i arg2 harg2 arg3 harg3 arg4 harg4 arg5 harg5 arg6 harg6 arg7 harg7 x0 x1 x2 x3).1)
/-- What the run leaves in the second result's buffer. -/
def outBlk5 : Vec F S128x128 .f32 :=
  VO5.read (Elt F) (VO5.writes (Elt F) VO5.junk (bodyRun c i arg2 harg2 arg3 harg3 arg4 harg4 arg5 harg5 arg6 harg6 arg7 harg7 x0 x1 x2 x3).2.1)

end Covers

/-- What the two result buffers hold after the body at point t: the run's contents at the point's memrefs and input blocks. -/
def outAt4 (c : Dev nD) (t : Fin cfg0.N) : Vec F S128x128 .f32 :=
  outBlk4 c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t)
def outAt5 (c : Dev nD) (t : Fin cfg0.N) : Vec F S128x128 .f32 :=
  outBlk5 c (grid0.coords t) (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t)

/-- The share each input window holds its array at: the two windows on one argument take the two halves. -/
abbrev shareOf : Fin 6 → PosShare TreeShare := fun w => match w with
  | ⟨0, _⟩ => fullShare.left
  | ⟨1, _⟩ => fullShare.right
  | ⟨2, _⟩ => fullShare.left
  | ⟨3, _⟩ => fullShare.right
  | ⟨4, _⟩ => fullShare
  | ⟨5, _⟩ => fullShare
  | ⟨_ + 6, h⟩ => absurd h (Nat.not_lt.2 (Nat.le_add_left _ _))

/-- The proof data on core c: the arrays as the region finds them; after the body at point t each input buffer at its
    block and the result buffers at what the run left; the invariant the class's (the scoped rest and the generator
    register); nothing owed; each argument's two windows at its two half shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ _ := Pipeline.ΦA spec0 c
  q := shareOf
  owed _ := 0

theorem A_eq (c : Dev nD) (w : Fin cfg0.W) : (dat m c).A w = V m c (Pipeline.arrRef spec0 w) := by dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]
theorem after2 (c : Dev nD) (t : Fin cfg0.N) : (dat m c).after 2 t = iblk m c 2 t := by dsimp only [dat]
theorem after3 (c : Dev nD) (t : Fin cfg0.N) : (dat m c).after 3 t = iblk m c 3 t := by dsimp only [dat]
theorem after4 (c : Dev nD) (t : Fin cfg0.N) : (dat m c).after 4 t = outAt4 m c t := by dsimp only [dat]
theorem after5 (c : Dev nD) (t : Fin cfg0.N) : (dat m c).after 5 t = outAt5 m c t := by dsimp only [dat]

theorem before0 (c : Dev nD) (t : Fin cfg0.N) (d) : (dat m c).before 0 t d = iblk m c 0 t :=
  before_in0 m (dat m c) (A_eq m c 0) (after0 m c) t d
theorem before1 (c : Dev nD) (t : Fin cfg0.N) (d) : (dat m c).before 1 t d = iblk m c 1 t :=
  before_in1 m (dat m c) (A_eq m c 1) (after1 m c) t d
theorem before2 (c : Dev nD) (t : Fin cfg0.N) (d) : (dat m c).before 2 t d = iblk m c 2 t :=
  before_in2 m (dat m c) (A_eq m c 2) (after2 m c) t d
theorem before3 (c : Dev nD) (t : Fin cfg0.N) (d) : (dat m c).before 3 t d = iblk m c 3 t :=
  before_in3 m (dat m c) (A_eq m c 3) (after3 m c) t d

end Cert.KernelIdeal.Hand

end
-- ==== Proof.FrameBodyOb.lean ====
/-
  The body obligation at a generic point.

  At point t the pipeline calls the body on the six current staging buffers: the four input buffers hold their blocks
  (fetched at this point or kept from an earlier one), the two result buffers hold anything.  The body's run applies;
  the invariant and the (empty) dues pass through untouched; afterwards each result buffer, read back, is what the
  proof data names, because the run's pieces cover the block.
-/
import proofs.«148350_j43739946942958_2_alg».proof.Proof.FrameData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at point t, the windows one by one, -/
def bodyPre (c : Dev nD) (t : Fin cfg0.N) : sProp 𝕄 :=
  iprop((dat m c).Φ t.castSucc ∗ (dat m c).owesAt () t.castSucc
    ∗ (∃ d, owns (c : Thread nD τ) (ms0 t) fullShare ((dat m c).before 0 t d))
    ∗ (∃ d, owns (c : Thread nD τ) (ms1 t) fullShare ((dat m c).before 1 t d))
    ∗ (∃ d, owns (c : Thread nD τ) (ms2 t) fullShare ((dat m c).before 2 t d))
    ∗ (∃ d, owns (c : Thread nD τ) (ms3 t) fullShare ((dat m c).before 3 t d))
    ∗ (∃ d, owns (c : Thread nD τ) (ms4 t) fullShare ((dat m c).before 4 t d))
    ∗ (∃ d, owns (c : Thread nD τ) (ms5 t) fullShare ((dat m c).before 5 t d)))

/-- and what it returns. -/
def bodyPost (c : Dev nD) (t : Fin cfg0.N) : sProp 𝕄 :=
  iprop((dat m c).Φ t.succ ∗ (dat m c).owesAt () t.succ
    ∗ owns (c : Thread nD τ) (ms0 t) fullShare ((dat m c).after 0 t)
    ∗ owns (c : Thread nD τ) (ms1 t) fullShare ((dat m c).after 1 t)
    ∗ owns (c : Thread nD τ) (ms2 t) fullShare ((dat m c).after 2 t)
    ∗ owns (c : Thread nD τ) (ms3 t) fullShare ((dat m c).after 3 t)
    ∗ owns (c : Thread nD τ) (ms4 t) fullShare ((dat m c).after 4 t)
    ∗ owns (c : Thread nD τ) (ms5 t) fullShare ((dat m c).after 5 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dat m c).Φ t.succ = (dat m c).Φ t.castSucc from rfl,
    show (dat m c).owesAt () t.succ = (dat m c).owesAt () t.castSucc from rfl,
    after0, after1, after2, after3, after4, after5]
  unfold outAt4 outAt5
  unfold outBlk4 outBlk5
  iintro ⟨HΦ, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover4 c _ _ _ _ _ _ _ _ _ _ _ _ _ _ _ _ _)
  unfold owns; iexists _; isplitr
  swap; · iexact H5
  ipureintro; exact View.read_writes_of_cover _ _ _ _ _ (cover5 c _ _ _ _ _ _ _ _ _ _ _ _ _ _ _ _ _)

/-- The library's body obligation, at every point. -/
theorem body_obligation (c : Dev nD) : BodyObligation (dat (F := F) m c) (defs₀ (F := F)) Variants.none () Set.univ := fun t => by
  rw [bigSep_W0, bigSep_W0]
  exact sound_body m c t

end Cert.KernelIdeal.Hand

end
-- ==== Proof.SharedArrays.lean ====
/-
  Two windows on one array: dealing the buffer at the region's entry and joining it at the exit.

  The pipeline has six windows but only four buffers behind them: the first argument is handed to windows 0 and 1,
  the second to windows 2 and 3.  The proof data hold an input array at a share of the buffer, so at the entry the
  buffer of each argument, whole at the full share, is split in two halves, one per window; at the exit the two halves,
  still at the entry contents (an input is never written), are joined again.  The two results are held whole.
-/
import proofs.«148350_j43739946942958_2_alg».proof.Proof.FrameData
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The four buffers behind the six windows, one by one. -/
theorem arrBufs_chain (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_arg1) ↦{fullShare} V main_arg1)
          ∗ (((c : Thread nD τ).loc main_v0_0) ↦{fullShare} V main_v0_0) ∗ (((c : Thread nD τ).loc main_v0_1) ↦{fullShare} V main_v0_1)) := by
  unfold Pipeline.arrBufs
  exact bigSep_eq_bigSepL_of_eq [main_arg0, main_arg1, main_v0_0, main_v0_1] (by decide) (by decide) _

/-- The share the proof data hold window w's array at. -/
theorem share_eq (c : Dev nD) (w : Fin 6) : (dat m c).share w = shareOf w := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl

/-- The proof data's arrays at contents Fn, window by window, each a whole buffer at its share. -/
theorem arrays_chain (c : Dev nD) (Fn : (w : Fin cfg0.W) → Buf (Elt F) ((cfg0.win w).arr.view.loc (c : Thread nD τ))) :
    (dat m c).arrays Fn
      = iprop((((c : Thread nD τ).loc main_arg0) ↦{fullShare.left} Fn 0) ∗ (((c : Thread nD τ).loc main_arg0) ↦{fullShare.right} Fn 1)
          ∗ (((c : Thread nD τ).loc main_arg1) ↦{fullShare.left} Fn 2) ∗ (((c : Thread nD τ).loc main_arg1) ↦{fullShare.right} Fn 3)
          ∗ (((c : Thread nD τ).loc main_v0_0) ↦{fullShare} Fn 4) ∗ (((c : Thread nD τ).loc main_v0_1) ↦{fullShare} Fn 5)) := by
  unfold Dat.arrays
  rw [bigSep_W0]
  simp only [share_eq]
  rw [(arr_whole0 0).set_eq_univ, (arr_whole0 2).set_eq_univ, (arr_whole0 4).set_eq_univ, (arr_whole0 5).set_eq_univ]

/-- ENTRY: the four buffers whole at the entry contents make the proof data's arrays at their entry contents, each
    argument's buffer split into the two half shares of its two windows. -/
theorem arrays_of_arrBufs (c : Dev nD) :
    (Pipeline.arrBufs spec0 c (V m c) : sProp 𝕄) ⊢ (dat m c).arrays ((dat m c).arrAt · 0) := by
  rw [arrBufs_chain, arrays_chain]
  iintro ⟨H0, H1, H4, H5⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H0l]; · iexact H0l
  isplitl [H0r]; · iexact H0r
  isplitl [H1l]; · iexact H1l
  isplitl [H1r]; · iexact H1r
  isplitl [H4]; · iexact H4
  iexact H5

/-- EXIT: the proof data's arrays after every write-back make the four buffers whole at any contents that have the
    two arguments as entered and the two results at what the write-backs left. -/
theorem arrBufs_of_arrays (c : Dev nD) (V' : (b : Ref sig .tc) → Buf (Elt F) ((c : Thread nD τ).loc b))
    (h0 : V' main_arg0 = V m c main_arg0) (h1 : V' main_arg1 = V m c main_arg1)
    (h4 : V' main_v0_0 = (dat m c).arrAt 4 cfg0.N) (h5 : V' main_v0_1 = (dat m c).arrAt 5 cfg0.N) :
    (dat m c).arrays ((dat m c).arrAt · cfg0.N) ⊢ (Pipeline.arrBufs spec0 c V' : sProp 𝕄) := by
  rw [arrBufs_chain, arrays_chain, h0, h1, h4, h5,
    (dat m c).arrAt_in 0 rfl _, (dat m c).arrAt_in 1 rfl _, (dat m c).arrAt_in 2 rfl _, (dat m c).arrAt_in 3 rfl _]
  iintro ⟨H0l, H0r, H1l, H1r, H4, H5⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H4]; · iexact H4
  iexact H5

end Cert.KernelIdeal.Hand

end
-- ==== Proof.FrameRun.lean ====
/-
  The run of @main: the kernel region, then eighteen host operations.

  Between the two segments the core holds every unscoped buffer whole at a valuation: at launch the memory's contents;
  after the region the same with the two results at what the pipeline's write-backs left; after the host operations
  their composed results on top of that.  The region is entered by splitting its four buffers off the unscoped ones
  (each argument's buffer dealt to its two windows) and left by joining them back; the generator register passes
  through the class invariant; nothing is owed.  Every weakly fair execution therefore ends with each unscoped buffer
  at the last valuation, in particular the arguments as launched and the result at the host operations' term.
-/
import proofs.«148350_j43739946942958_2_alg».proof.Proof.FrameBodyOb
import proofs.«148350_j43739946942958_2_alg».proof.Proof.SharedArrays
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-! ## The buffers' contents at the segment boundaries -/

/-- Core c's buffers at launch (the region's entry). -/
abbrev W1 (c : Dev nD) : Valuation τ sig (Elt F) := fun b => m (c, b)
/-- At the region's exit: the two results at what the write-backs left, every other buffer as entered. -/
def W2 (c : Dev nD) : Valuation τ sig (Elt F) :=
  Function.update (Function.update (W1 m c) (Proc.devRef .tc main_v0_0) ((dat m c).arrAt 4 cfg0.N))
    (Proc.devRef .tc main_v0_1) ((dat m c).arrAt 5 cfg0.N)
/-- The same read at the TensorCore's references. -/
abbrev V2 (c : Dev nD) (b : Ref sig .tc) : Buf (Elt F) ((c : Thread nD τ).loc b) := W2 m c b
/-- After the host operations. -/
abbrev W3 (c : Dev nD) : Valuation τ sig (Elt F) := StableHlo.after hostOps1 (W2 m c)

theorem W2_v0_1 (c : Dev nD) : W2 m c (Proc.devRef .tc main_v0_1) = (dat m c).arrAt 5 cfg0.N := by
  unfold W2; exact Function.update_self ..
theorem W2_v0_0 (c : Dev nD) : W2 m c (Proc.devRef .tc main_v0_0) = (dat m c).arrAt 4 cfg0.N := by
  unfold W2
  rw [Function.update_of_ne (StableHlo.devRef_ne_of_ne (by decide) : (Proc.devRef .tc main_v0_0 : DevRef τ sig) ≠ Proc.devRef .tc main_v0_1)]
  exact Function.update_self ..
theorem W2_of_ne (c : Dev nD) (b : Ref sig .tc) (h0 : b ≠ main_v0_0) (h1 : b ≠ main_v0_1) :
    W2 m c (Proc.devRef .tc b) = W1 m c (Proc.devRef .tc b) := by
  unfold W2
  rw [Function.update_of_ne (StableHlo.devRef_ne_of_ne h1), Function.update_of_ne (StableHlo.devRef_ne_of_ne h0)]

/-- Off the windows' arrays the exit valuation is the entry one. -/
theorem V2_rest (c : Dev nD) (b : Ref sig .tc) (hb : b ∉ Finset.univ.image (Pipeline.arrRef spec0)) : V2 m c b = V m c b :=
  W2_of_ne m c b (fun e => hb (Finset.mem_image.mpr ⟨4, Finset.mem_univ _, e.symm⟩))
    (fun e => hb (Finset.mem_image.mpr ⟨5, Finset.mem_univ _, e.symm⟩))

/-! ## What the host operations write -/

theorem hostOps1_fresh : (hostOps1 : List (HloOp τ sig (Elt F))).Forall fun op => op.fresh = ∅ := by
  simp only [List.Forall]; repeat' constructor
/-- The references the host operations write. -/
abbrev hostOps1_W : List (Ref sig .tc) :=
  [main_v1, main_v2, main_cst, main_v3, main_cst_0, main_v4, main_v5, main_v6, main_cst_1, main_v7, main_cst_2, main_v8, main_v9,
    main_v10, main_v11, main_v12, main_cst_3, main_v13]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.reshape_writes,
      Finset.singleton_subset_iff, List.mem_toFinset]; exact List.mem_map_of_mem (by decide))
theorem W3_of (c : Dev nD) (r : Ref sig .tc) (h : r ∉ hostOps1_W) : W3 m c r = W2 m c r :=
  StableHlo.after_of_writes_sub hostOps1 _ hostOps1_writes h

theorem W3_main_arg0 (c : Dev nD) : W3 m c main_arg0 = m ((c : Thread nD τ).loc main_arg0) :=
  (W3_of m c main_arg0 (by decide)).trans (W2_of_ne m c main_arg0 (by decide) (by decide))
theorem W3_main_arg1 (c : Dev nD) : W3 m c main_arg1 = m ((c : Thread nD τ).loc main_arg1) :=
  (W3_of m c main_arg1 (by decide)).trans (W2_of_ne m c main_arg1 (by decide) (by decide))

/-! ## The proof data family and what rides beside the buffers -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat m c
abbrev 𝒱₀ : Variants := Variants.none
abbrev Lz : GSem nD τ sig → Finset Unit := fun _ => ∅
abbrev lvz : GSem nD τ sig → Unit → ℕ := fun _ _ => 0
/-- The generator register at some state and the core owing nothing. -/
abbrev Rst (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The unscoped buffers at the entry valuation are the four buffers behind the windows and the rest. -/
theorem held_split (c : Dev nD) (W : Valuation τ sig (Elt F)) :
    (StableHlo.held (c : Thread nD τ) (Pipeline.ucRefs τ sig) W : sProp 𝕄)
      = iprop((Pipeline.arrBufs spec0 c (fun b => W b) : sProp 𝕄) ∗ Pipeline.unscopedRest spec0 c (fun b => W b)) := by
  rw [← Pipeline.unscopedBufs_held (Ix := Unit) (Name := ℕ) (U := UR sig nD τ) (Lvl := ℕ) c W]
  exact Pipeline.unscopedBufs_split₀ cfgs (0 : Fin 1) winFacts₀0.arr_unscoped c (fun b => W b)

set_option backward.isDefEq.respectTransparency.types false in
/-- THE REGION over the thread state: entered from every unscoped buffer at the launch contents, left at the exit
    valuation. -/
def reg0 : Pipeline.RegionSeg (pcfgs (F := F)) adm (pdats m) () defs₀ 𝒱₀ Lz lvz 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none, held_split]
    iintro ⟨⟨⟨Ha, Hrest⟩, Hp, HO⟩, -, -⟩
    ihave Ha' := (arrays_of_arrBufs m c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_split]
    have hjoin := arrBufs_of_arrays m c (V2 m c) (W2_of_ne m c main_arg0 (by decide) (by decide)) (W2_of_ne m c main_arg1 (by decide) (by decide))
      (W2_v0_0 m c) (W2_v0_1 m c)
    have hrest : (Pipeline.unscopedRest (Ix := Unit) (Name := ℕ) (U := UR sig nD τ) (Lvl := ℕ) spec0 c (V2 m c) : sProp 𝕄)
        = Pipeline.unscopedRest spec0 c (V m c) := by
      unfold Pipeline.unscopedRest
      exact bigSep_congr fun b hb => by rw [V2_rest m c b (Finset.mem_sdiff.mp hb).2]
    iintro ⟨Ha, HO, HY, Hrest⟩
    imodintro
    isplitl [Ha Hrest]
    · isplitl [Ha]; · iapply hjoin; iexact Ha
      rw [hrest]; iexact Hrest
    isplitl [HY]; · iexact HY
    unfold Pipeline.Dat.owesAt Pipeline.owesWithin
    icases HO with ⟨%W, -, HO⟩; iexists W; iexact HO

/-! ## @main as two segments, and the launch -/

/-- The eighteen host operations as a segment over the unscoped buffers from the region's exit valuation. -/
abbrev hseg1 : Pipeline.HostSeg (Name := ℕ) (U := UR sig nD τ) (pcfgs (F := F)) defs₀ 𝒱₀ Lz lvz :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) Rst

/-- @main's two segments in order. -/
abbrev segs : List (Pipeline.Seg (pcfgs (F := F)) adm (pdats m) () defs₀ 𝒱₀ Lz lvz) :=
  [ .region (reg0 m), .host (hseg1 m) ]

/-- @main is the run of the two segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    with every unscoped buffer of every core at the last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ Lz lvz m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W1 m c) ∗ Rst c))
    (Tₙ := fun c => iprop(StableHlo.held (c : Thread nD τ) (Pipeline.ucRefs τ sig) (W3 m c) ∗ ∃ r, prngReg c r))
    (hch := ⟨fun _ => .rfl, fun _ => .rfl, fun c => by
      show (iprop(StableHlo.held (c : Thread nD τ) (Pipeline.ucRefs τ sig) (W3 m c) ∗ Rst c) : sProp 𝕄) ⊢ _
      iintro ⟨Hh, Hp, HO⟩
      isplitl [Hh Hp]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W1 m c)
        from Pipeline.unscopedBufs_held c (W1 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The frame: the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m c),
     (h c _ (mem_uc main_arg1 (by decide))).trans (W3_main_arg1 m c)⟩) (run_all m ρ)

/-- The run with the result named: the result buffer ends at the host operations' term over the region's exit
    valuation, the arguments as launched. -/
theorem run_result : θ_run defs (onTc (τ := τ) (main (F := F))) ⟨m, fun _ => 0, ρ⟩ (fun r => ∀ c : Dev nD,
      r.2.mem ((c.tc : Thread nD τ).loc main_v13) = W3 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v13 (by decide)),
     (h c _ (mem_uc main_arg0 (by decide))).trans (W3_main_arg0 m c),
     (h c _ (mem_uc main_arg1 (by decide))).trans (W3_main_arg1 m c)⟩) (run_all m ρ)

end Cert.KernelIdeal.Hand

end
-- ==== Proof.Spec.lean ====
/-
  The function both programs compute, stated once over the extended reals.

  For a matrix x of 512 rows of 512 entries, the pair loss at (i, j) is the sum over the 512 columns k of the
  smooth absolute value (threshold 1) of x i k - x j k, written here in the product form
      min |d| 1 * (|d| - 1/2 * min |d| 1),
  which is d^2 / 2 where |d| < 1 and |d| - 1/2 from 1 on.  The result is the L1 distance between the two
  matrices of pair losses (teacher's and student's), each first flattened and divided by its own mean:
      sum_p | a_p / (sum a / 262144) - b_p / (sum b / 262144) |.
  The closing stretch — flatten, mean, divide, subtract, absolute value, sum — is one definition (tail), applied by
  both programs to their two matrices of pair losses; nothing here opens it.
-/
import Idealize.ShloMosaic.PureOps
import Idealize.ShloMosaic.PureOps.Ideal
import Idealize.ShloMosaic.Lib.ValueIdx

noncomputable section

namespace Cert.Spec

open Idealize.ShloMosaic

abbrev S512x512 : Shape := ⟨2, ![512, 512]⟩
abbrev S262144 : Shape := ⟨1, ![262144]⟩
abbrev S_ : Shape := ⟨0, ![]⟩

/-- The smooth absolute value with threshold 1, in the product form: with a = |d| = max d (-d) and c = min a 1,
    the value c * (a - 1/2 * c).  The two constants are kept as the float words for 1 and 1/2. -/
def hub (d : EReal) : EReal :=
  min (max d (-d)) (Ideal.ofBits .f32 0x3F800000#32)
    * (max d (-d) - Ideal.ofBits .f32 0x3F000000#32 * min (max d (-d)) (Ideal.ofBits .f32 0x3F800000#32))

/-- The pair loss of rows i and j of x: the smooth absolute differences summed over the columns. -/
def pairLossAt (x : S512x512.Idx → EReal) (i j : Fin 512) : EReal :=
  ∑ k : Fin 512, hub (x (ValueIdx.ix2 i k) - x (ValueIdx.ix2 j k))

/-- The matrix of pair losses. -/
def pairLoss (x : S512x512.Idx → EReal) : S512x512.Idx → EReal :=
  fun ij => pairLossAt x (ij 0) (ij 1)

/-- The closing stretch shared by the two programs, on two 512 x 512 matrices A and B: flatten each, divide each by
    its mean (its sum over 262144), subtract, take absolute values, sum. The shape facts are arguments, so that either
    program can supply its own. -/
def tail (hc : S512x512.ShapeCasts S262144) (hr : S262144.ReducesTo [0] S_) (h0 : 0 < S_.numel)
    (hb : S_.BroadcastsInDim S262144 (![] : Fin 0 → Fin S262144.rank))
    (A B : FVec Ideal S512x512 .f32) : FVec Ideal S_ .f32 :=
  Host.reduceAdd (F := Ideal)
    (Host.absf (F := Ideal)
      (subf (F := Ideal)
        (Host.divf (F := Ideal) (shapeCast S262144 A hc)
          (broadcastInDim S262144 ![] hb
            (Host.divf (F := Ideal) (Host.reduceAdd (F := Ideal) (shapeCast S262144 A hc) (constant (F := Ideal) S_ .f32 0x00000000#32) hr h0)
              (constant (F := Ideal) S_ .f32 0x48800000#32))))
        (Host.divf (F := Ideal) (shapeCast S262144 B hc)
          (broadcastInDim S262144 ![] hb
            (Host.divf (F := Ideal) (Host.reduceAdd (F := Ideal) (shapeCast S262144 B hc) (constant (F := Ideal) S_ .f32 0x00000000#32) hr h0)
              (constant (F := Ideal) S_ .f32 0x48800000#32))))))
    (constant (F := Ideal) S_ .f32 0x00000000#32) hr h0

/-- The whole result as a function of the two argument matrices. -/
def result (hc : S512x512.ShapeCasts S262144) (hr : S262144.ReducesTo [0] S_) (h0 : 0 < S_.numel)
    (hb : S_.BroadcastsInDim S262144 (![] : Fin 0 → Fin S262144.rank))
    (t s : S512x512.Idx → EReal) : FVec Ideal S_ .f32 :=
  tail hc hr h0 hb (pairLoss t) (pairLoss s)

end Cert.Spec

end
-- ==== Proof.PayloadAt.lean ====
/-
  The kernel's payload read at an index.

  The body's arithmetic takes a strip of 8 rows (the "i" rows) and a block of 128 rows (the "j" rows), both of 512
  columns, lays them out over the common index set [8, 128, 512] — the strip repeated along the middle axis, the
  block along the leading one —, forms at every (r, q, k) the smooth absolute value, in the product form, of
  strip (r, k) - block (q, k), and sums over the last axis.  So at (r, q) the payload is
      sum over k : Fin 512 of hub (strip (r, k) - block (q, k)),
  the specification's pair loss of the two rows.  The two float constants stay the words they are printed as.
-/
import proofs.«148350_j43739946942958_2_alg».proof.Proof.Gen.KernelIdeal.Skeleton
import proofs.«148350_j43739946942958_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayloadAt

open Idealize.ShloMosaic Idealize.ShloMosaic.ValueIdx
open Cert.KernelIdeal Cert.KernelIdeal.Facts₀

/-- The index the lane sum inserts: the output index (r, q) with the summed coordinate k put on the last axis is
    (r, q, k). -/
theorem lift_ix (h : S8x128x512.Reduces [2] S8x128) (r : Fin 8) (q : Fin 128) (k : Fin 512) :
    h.lift (ix2 r q) k = ix3 r q k := by
  funext c
  refine Fin.ext ((Shape.Reduces.lift_val h (ix2 r q) k c).trans ?_)
  match c with
  | ⟨0, _⟩ => rfl
  | ⟨1, _⟩ => rfl
  | ⟨2, _⟩ => rfl

section Layout
variable {α : Type}

/-- An [8, 512] strip given a unit middle axis and then repeated along it 128 times reads, at (r, q, k), the strip at
    (r, k): the middle coordinate is forgotten. -/
theorem row_read (x : S8x512.Idx → α) (hc : S8x512.ShapeCasts S8x1x512) (hb : S8x1x512.Broadcasts S8x128x512)
    (r : Fin 8) (q : Fin 128) (k : Fin 512) :
    broadcastTo S8x128x512 (shapeCast S8x1x512 x hc) hb (ix3 r q k) = x (ix2 r k) := by
  refine (broadcastTo_apply _ hb (ix3 r q k) (ix3 r (0 : Fin 1) k) fun a => ?_).trans ?_
  · match a with
    | ⟨0, _⟩ => rfl
    | ⟨1, _⟩ => rfl
    | ⟨2, _⟩ => rfl
  · refine shapeCast_apply x hc _ _ ?_
    rw [Shape.rowMajor_val_two, Shape.rowMajor_val_three]
    show r.val * 512 + k.val = (r.val * 1 + 0) * 512 + k.val
    omega

/-- A [128, 512] block given a unit leading axis and then repeated along it 8 times reads, at (r, q, k), the block at
    (q, k): the leading coordinate is forgotten. -/
theorem col_read (x : S128x512.Idx → α) (hc : S128x512.ShapeCasts S1x128x512) (hb : S1x128x512.Broadcasts S8x128x512)
    (r : Fin 8) (q : Fin 128) (k : Fin 512) :
    broadcastTo S8x128x512 (shapeCast S1x128x512 x hc) hb (ix3 r q k) = x (ix2 q k) := by
  refine (broadcastTo_apply _ hb (ix3 r q k) (ix3 (0 : Fin 1) q k) fun a => ?_).trans ?_
  · match a with
    | ⟨0, _⟩ => rfl
    | ⟨1, _⟩ => rfl
    | ⟨2, _⟩ => rfl
  · exact shapeCast_ab_1ab_apply x hc (0 : Fin 1) q k

end Layout

/-- The absolute value of a vector read at an index. -/
theorem absf_apply {s : Shape} {φ : FTy} (a : FVec Ideal s φ) (i : s.Idx) : absf a i = max (a i) (-(a i)) := rfl

/-- The first payload at (r, q): the smooth absolute differences of row r of the strip and row q of the block, summed
    over the 512 columns. -/
theorem pay1_apply (v0 : Vec Ideal Cert.KernelIdeal.S128x512 .f32) (v7 : Vec Ideal Cert.KernelIdeal.S8x512 .f32)
    (r : Fin 8) (q : Fin 128) :
    Cert.KernelIdeal.Gen.k0_pay1 (F := Ideal) v0 v7 (ValueIdx.ix2 r q)
      = ∑ k : Fin 512, Cert.Spec.hub (v7 (ValueIdx.ix2 r k) - v0 (ValueIdx.ix2 q k)) := by
  unfold Cert.KernelIdeal.Gen.k0_pay1
  refine (Ideal.multiReduction_add_single (φ := .f32) _ 0x00000000#32 reduces_S8x128x512_S8x128 (.inl rfl) rfl
    (ix2 r q)).trans ?_
  refine Finset.sum_congr rfl fun (k : Fin 512) _ => ?_
  rw [lift_ix]
  simp only [mulf_apply, subf_apply, absf_apply, minimumf_apply, broadcast_apply, row_read, col_read]
  rfl

/-- The second payload is the same term as the first. -/
theorem pay2_eq (v2 : Vec Ideal Cert.KernelIdeal.S128x512 .f32) (v7 : Vec Ideal Cert.KernelIdeal.S8x512 .f32) :
    Cert.KernelIdeal.Gen.k0_pay2 (F := Ideal) v2 v7 = Cert.KernelIdeal.Gen.k0_pay1 (F := Ideal) v2 v7 := rfl

/-- The second payload at (r, q). -/
theorem pay2_apply (v2 : Vec Ideal Cert.KernelIdeal.S128x512 .f32) (v7 : Vec Ideal Cert.KernelIdeal.S8x512 .f32)
    (r : Fin 8) (q : Fin 128) :
    Cert.KernelIdeal.Gen.k0_pay2 (F := Ideal) v2 v7 (ValueIdx.ix2 r q)
      = ∑ k : Fin 512, Cert.Spec.hub (v7 (ValueIdx.ix2 r k) - v2 (ValueIdx.ix2 q k)) :=
  (congrFun (pay2_eq v2 v7) (ix2 r q)).trans (pay1_apply v2 v7 r q)

end Cert.KernelIdeal.PayloadAt

end
-- ==== Proof.BlockAt.lean ====
/-
  The two result blocks read at an index.

  The body's run leaves in each result buffer sixteen strips of 8 x 128, one per trip of a loop: trip k of the first
  loop stores, at rows 8k .. 8k + 7, the payload of the strip of rows 8k .. 8k + 7 of the first operand's block and
  the 128 rows of the second operand's block; the second loop does the same with the third and fourth operands.
  Each strip is therefore the block, at its rectangle, of ONE function of the result's index — the pair loss of
  row r of one block and row q of the other —, the strips cover the 128 x 128 result, and so the result read back
  at (r, q) is
      sum over k : Fin 512 of hub (x (r, k) - y (q, k)).
-/
import proofs.«148350_j43739946942958_2_alg».proof.Proof.FrameData
import proofs.«148350_j43739946942958_2_alg».proof.Proof.PayloadAt
import Idealize.ShloMosaic.Lib.Pipeline.Value
import Idealize.ShloMosaic.Lib.Pipeline.FrameBody

set_option maxRecDepth 16384

noncomputable section

namespace Cert.KernelIdeal.BlockAt

open Cert.KernelIdeal Cert.KernelIdeal.Gen Cert.KernelIdeal.Hand
open Idealize.ShloMosaic Idealize.ShloMosaic.TcCoe Idealize.ShloMosaic.ValueIdx
open Idealize.SL Idealize.SL.Sem

/-- The pieces of a list built trip by trip, one piece per trip in front of the earlier ones, all have a property
    that every trip's piece has. -/
theorem forall_mem_of_trips {α : Type} (pb : ℕ → List α) (N : ℕ) (piece : Fin N → α) (h0 : pb 0 = [])
    (hs : ∀ k : Fin N, pb (k.val + 1) = [piece k] ++ pb k.val) (P : α → Prop) (hP : ∀ k, P (piece k)) :
    ∀ n, n ≤ N → ∀ p ∈ pb n, P p
  | 0, _, p, hp => by rw [h0] at hp; exact absurd hp List.not_mem_nil
  | n + 1, hn, p, hp => by
    have e : pb (n + 1) = [piece ⟨n, hn⟩] ++ pb n := hs ⟨n, hn⟩
    rw [e] at hp
    rcases List.mem_append.mp hp with h | h
    · rw [List.mem_singleton.mp h]; exact hP ⟨n, hn⟩
    · exact forall_mem_of_trips pb N piece h0 hs P hP n (Nat.le_of_succ_le hn) p h

section Generic
variable {F : FTy → Type} [FloatOps F]
variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x512 .f32) (harg4 : arg4.IsWhole) (arg5 : Memref sig .tc .vmem S128x512 .f32) (harg5 : arg5.IsWhole)
  (arg6 : Memref sig .tc .vmem S128x128 .f32) (harg6 : arg6.IsWhole) (arg7 : Memref sig .tc .vmem S128x128 .f32) (harg7 : arg7.IsWhole)

/-- A trip of the first loop leaves one piece: the strip of 8 x 128 at rows 8k .. 8k + 7 of the result, holding the
    payload of the 128 rows read before the loop and the strip of 8 rows read at the same offset. -/
theorem tripL1_eq (v0 : Vec F S128x512 .f32) (X : BufTy.Contents (Elt F) arg2.view.ty) (k : Fin k0_t1_loop.trips) :
    tripL_k0_t1 (F := F) Variants.none c none i arg2 harg2 arg3 harg3 arg4 harg4 arg5 harg5 arg6 harg6 arg7 harg7 v0 X k
      = [⟨Rect.unit (s := S128x128) (k0_off2 k) S8x128.size (Gen.k0_off2_inb k),
          k0_pay1 v0 (arg2.view.readAt (Elt F) (Rect.unit (s := S128x512) (k0_off1 k) S8x512.size (Gen.k0_off1_inb k)).toLoadRect X)⟩] := by
  unfold tripL_k0_t1 trip_k0_t1
  rfl

/-- A trip of the second loop likewise. -/
theorem tripL2_eq (v2 : Vec F S128x512 .f32) (X : BufTy.Contents (Elt F) arg4.view.ty) (k : Fin k0_t2_loop.trips) :
    tripL_k0_t2 (F := F) Variants.none c none i arg2 harg2 arg3 harg3 arg4 harg4 arg5 harg5 arg6 harg6 arg7 harg7 v2 X k
      = [⟨Rect.unit (s := S128x128) (k0_off4 k) S8x128.size (Gen.k0_off4_inb k),
          k0_pay2 v2 (arg4.view.readAt (Elt F) (Rect.unit (s := S128x512) (k0_off3 k) S8x512.size (Gen.k0_off3_inb k)).toLoadRect X)⟩] := by
  unfold tripL_k0_t2 trip_k0_t2
  rfl

/-- The first result's pieces are the first loop's, all trips done, on the whole second operand and the first
    operand's contents. -/
theorem L4_eq (x0 x1 x2 x3 : Vec F S128x512 .f32) :
    (bodyRun c i arg2 harg2 arg3 harg3 arg4 harg4 arg5 harg5 arg6 harg6 arg7 harg7 x0 x1 x2 x3).1
      = pb_k0_t1 (F := F) Variants.none c none i arg2 harg2 arg3 harg3 arg4 harg4 arg5 harg5 arg6 harg6 arg7 harg7
          (arg3.view.readAt (Elt F) (Rect.unit (s := S128x512) ![0, 0] S128x512.size Gen.inb_S128x512_S128x512_0_0).toLoadRect (harg3.unread x1))
          (harg2.unread x0) k0_t1_loop.trips := by
  unfold bodyRun
  rfl

theorem L5_eq (x0 x1 x2 x3 : Vec F S128x512 .f32) :
    (bodyRun c i arg2 harg2 arg3 harg3 arg4 harg4 arg5 harg5 arg6 harg6 arg7 harg7 x0 x1 x2 x3).2.1
      = pb_k0_t2 (F := F) Variants.none c none i arg2 harg2 arg3 harg3 arg4 harg4 arg5 harg5 arg6 harg6 arg7 harg7
          (arg5.view.readAt (Elt F) (Rect.unit (s := S128x512) ![0, 0] S128x512.size Gen.inb_S128x512_S128x512_0_0).toLoadRect (harg5.unread x3))
          (harg4.unread x2) k0_t2_loop.trips := by
  unfold bodyRun
  rfl

end Generic

section AtIdeal
variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x512 .f32) (harg4 : arg4.IsWhole) (arg5 : Memref sig .tc .vmem S128x512 .f32) (harg5 : arg5.IsWhole)
  (arg6 : Memref sig .tc .vmem S128x128 .f32) (harg6 : arg6.IsWhole) (arg7 : Memref sig .tc .vmem S128x128 .f32) (harg7 : arg7.IsWhole)

/-- The matrix of pair losses of the rows of two 128 x 512 blocks: at (r, q) the smooth absolute differences of row r
    of the first and row q of the second, summed over the 512 columns. -/
def pairBlock (a b : Vec Ideal S128x512 .f32) : S128x128.Idx → Elt Ideal .f32 :=
  fun y => ∑ kk : Fin 512, Cert.Spec.hub (a (ix2 (y 0 : Fin 128) kk) - b (ix2 (y 1 : Fin 128) kk))

/-- The piece of trip k of the first loop is the block of the pair losses at its rectangle: rows 8k .. 8k + 7 of the
    first operand against the 128 rows of the second. -/
theorem piece1_ok (x0 x1 : Vec Ideal S128x512 .f32) (k : Fin k0_t1_loop.trips)
    (x : (Rect.unit (s := S128x128) (k0_off2 k) S8x128.size (Gen.k0_off2_inb k)).shape.Idx) :
    k0_pay1 (F := Ideal)
        (arg3.view.readAt (Elt Ideal) (Rect.unit (s := S128x512) ![0, 0] S128x512.size Gen.inb_S128x512_S128x512_0_0).toLoadRect (harg3.unread x1))
        (arg2.view.readAt (Elt Ideal) (Rect.unit (s := S128x512) (k0_off1 k) S8x512.size (Gen.k0_off1_inb k)).toLoadRect (harg2.unread x0)) x
      = pairBlock x0 x1 ((Rect.unit (s := S128x128) (k0_off2 k) S8x128.size (Gen.k0_off2_inb k)).emb x) := by
  obtain ⟨a, b, rfl⟩ : ∃ (a : Fin 8) (b : Fin 128), x = ix2 a b := ⟨x 0, x 1, eq_ix2 x⟩
  refine (PayloadAt.pay1_apply _ _ a b).trans ?_
  unfold pairBlock
  refine Finset.sum_congr rfl fun kk _ => ?_
  have e0 : arg2.view.readAt (Elt Ideal) (Rect.unit (s := S128x512) (k0_off1 k) S8x512.size (Gen.k0_off1_inb k)).toLoadRect (harg2.unread x0) (ix2 a kk)
      = x0 (ix2 (((Rect.unit (s := S128x128) (k0_off2 k) S8x128.size (Gen.k0_off2_inb k)).emb (ix2 a b)) 0 : Fin 128) kk) := by
    rw [View.readAt_apply, harg2.read_unread]
    refine congrArg x0 (funext fun ax => Fin.ext ?_)
    match ax with
    | ⟨0, _⟩ =>
      show k0_off1 k 0 + 1 * a.val = k0_off2 k 0 + 1 * a.val
      rw [k0_off1_eq, k0_off2_eq]
    | ⟨1, _⟩ =>
      show k0_off1 k 1 + 1 * kk.val = kk.val
      rw [k0_off1_eq]
      show 0 + 1 * kk.val = kk.val
      omega
  have e1 : arg3.view.readAt (Elt Ideal) (Rect.unit (s := S128x512) ![0, 0] S128x512.size Gen.inb_S128x512_S128x512_0_0).toLoadRect (harg3.unread x1) (ix2 b kk)
      = x1 (ix2 (((Rect.unit (s := S128x128) (k0_off2 k) S8x128.size (Gen.k0_off2_inb k)).emb (ix2 a b)) 1 : Fin 128) kk) := by
    rw [View.readAt_apply, harg3.read_unread]
    refine congrArg x1 (funext fun ax => Fin.ext ?_)
    match ax with
    | ⟨0, _⟩ =>
      show 0 + 1 * b.val = k0_off2 k 1 + 1 * b.val
      rw [k0_off2_eq]
      rfl
    | ⟨1, _⟩ =>
      show 0 + 1 * kk.val = kk.val
      omega
  rw [e0, e1]

/-- The first result's block at (r, q): the pair loss of row r of the first operand's block and row q of the
    second's. -/
theorem outBlk4_apply (x0 x1 x2 x3 : Vec Ideal S128x512 .f32) (r q : Fin 128) :
    outBlk4 (F := Ideal) c i arg2 harg2 arg3 harg3 arg4 harg4 arg5 harg5 arg6 harg6 arg7 harg7 x0 x1 x2 x3 (ValueIdx.ix2 r q)
      = ∑ k : Fin 512, Cert.Spec.hub (x0 (ValueIdx.ix2 r k) - x1 (ValueIdx.ix2 q k)) := by
  unfold outBlk4
  rw [View.read_writes_junk_eq_canon]
  refine (View.canon_apply_of_pieces (pairBlock x0 x1) _ ?_ (ix2 r q)
    (cover4 c i arg2 harg2 arg3 harg3 arg4 harg4 arg5 harg5 arg6 harg6 arg7 harg7 x0 x1 x2 x3 (ix2 r q))).trans rfl
  rw [L4_eq]
  exact forall_mem_of_trips _ k0_t1_loop.trips _ rfl
    (fun k => (pb_k0_t1_succ Variants.none c none i arg2 harg2 arg3 harg3 arg4 harg4 arg5 harg5 arg6 harg6 arg7 harg7 _ _ k).trans
      (congrArg (· ++ _) (tripL1_eq c i arg2 harg2 arg3 harg3 arg4 harg4 arg5 harg5 arg6 harg6 arg7 harg7 _ _ k)))
    (fun p => ∀ x : p.1.shape.Idx, p.2 x = pairBlock x0 x1 (p.1.emb x))
    (fun k => piece1_ok arg2 harg2 arg3 harg3 x0 x1 k) _ le_rfl

end AtIdeal

section AtIdeal2
variable (c : Dev nD) (i : grid0.Coords)
  (arg2 : Memref sig .tc .vmem S128x512 .f32) (harg2 : arg2.IsWhole) (arg3 : Memref sig .tc .vmem S128x512 .f32) (harg3 : arg3.IsWhole)
  (arg4 : Memref sig .tc .vmem S128x512 .f32) (harg4 : arg4.IsWhole) (arg5 : Memref sig .tc .vmem S128x512 .f32) (harg5 : arg5.IsWhole)
  (arg6 : Memref sig .tc .vmem S128x128 .f32) (harg6 : arg6.IsWhole) (arg7 : Memref sig .tc .vmem S128x128 .f32) (harg7 : arg7.IsWhole)

/-- The piece of trip k of the second loop is the block of the pair losses at its rectangle, on the second pair of
    operands. -/
theorem piece2_ok (x2 x3 : Vec Ideal S128x512 .f32) (k : Fin k0_t2_loop.trips)
    (x : (Rect.unit (s := S128x128) (k0_off4 k) S8x128.size (Gen.k0_off4_inb k)).shape.Idx) :
    k0_pay2 (F := Ideal)
        (arg5.view.readAt (Elt Ideal) (Rect.unit (s := S128x512) ![0, 0] S128x512.size Gen.inb_S128x512_S128x512_0_0).toLoadRect (harg5.unread x3))
        (arg4.view.readAt (Elt Ideal) (Rect.unit (s := S128x512) (k0_off3 k) S8x512.size (Gen.k0_off3_inb k)).toLoadRect (harg4.unread x2)) x
      = pairBlock x2 x3 ((Rect.unit (s := S128x128) (k0_off4 k) S8x128.size (Gen.k0_off4_inb k)).emb x) := by
  obtain ⟨a, b, rfl⟩ : ∃ (a : Fin 8) (b : Fin 128), x = ix2 a b := ⟨x 0, x 1, eq_ix2 x⟩
  refine (PayloadAt.pay2_apply _ _ a b).trans ?_
  unfold pairBlock
  refine Finset.sum_congr rfl fun kk _ => ?_
  have e0 : arg4.view.readAt (Elt Ideal) (Rect.unit (s := S128x512) (k0_off3 k) S8x512.size (Gen.k0_off3_inb k)).toLoadRect (harg4.unread x2) (ix2 a kk)
      = x2 (ix2 (((Rect.unit (s := S128x128) (k0_off4 k) S8x128.size (Gen.k0_off4_inb k)).emb (ix2 a b)) 0 : Fin 128) kk) := by
    rw [View.readAt_apply, harg4.read_unread]
    refine congrArg x2 (funext fun ax => Fin.ext ?_)
    match ax with
    | ⟨0, _⟩ =>
      show k0_off3 k 0 + 1 * a.val = k0_off4 k 0 + 1 * a.val
      rw [k0_off3_eq, k0_off4_eq]
    | ⟨1, _⟩ =>
      show k0_off3 k 1 + 1 * kk.val = kk.val
      rw [k0_off3_eq]
      show 0 + 1 * kk.val = kk.val
      omega
  have e1 : arg5.view.readAt (Elt Ideal) (Rect.unit (s := S128x512) ![0, 0] S128x512.size Gen.inb_S128x512_S128x512_0_0).toLoadRect (harg5.unread x3) (ix2 b kk)
      = x3 (ix2 (((Rect.unit (s := S128x128) (k0_off4 k) S8x128.size (Gen.k0_off4_inb k)).emb (ix2 a b)) 1 : Fin 128) kk) := by
    rw [View.readAt_apply, harg5.read_unread]
    refine congrArg x3 (funext fun ax => Fin.ext ?_)
    match ax with
    | ⟨0, _⟩ =>
      show 0 + 1 * b.val = k0_off4 k 1 + 1 * b.val
      rw [k0_off4_eq]
      rfl
    | ⟨1, _⟩ =>
      show 0 + 1 * kk.val = kk.val
      omega
  rw [e0, e1]

/-- The second result's block at (r, q): the pair loss of row r of the third operand's block and row q of the
    fourth's. -/
theorem outBlk5_apply (x0 x1 x2 x3 : Vec Ideal S128x512 .f32) (r q : Fin 128) :
    outBlk5 (F := Ideal) c i arg2 harg2 arg3 harg3 arg4 harg4 arg5 harg5 arg6 harg6 arg7 harg7 x0 x1 x2 x3 (ValueIdx.ix2 r q)
      = ∑ k : Fin 512, Cert.Spec.hub (x2 (ValueIdx.ix2 r k) - x3 (ValueIdx.ix2 q k)) := by
  unfold outBlk5
  rw [View.read_writes_junk_eq_canon]
  refine (View.canon_apply_of_pieces (pairBlock x2 x3) _ ?_ (ix2 r q)
    (cover5 c i arg2 harg2 arg3 harg3 arg4 harg4 arg5 harg5 arg6 harg6 arg7 harg7 x0 x1 x2 x3 (ix2 r q))).trans rfl
  rw [L5_eq]
  exact forall_mem_of_trips _ k0_t2_loop.trips _ rfl
    (fun k => (pb_k0_t2_succ Variants.none c none i arg2 harg2 arg3 harg3 arg4 harg4 arg5 harg5 arg6 harg6 arg7 harg7 _ _ k).trans
      (congrArg (· ++ _) (tripL2_eq c i arg2 harg2 arg3 harg3 arg4 harg4 arg5 harg5 arg6 harg6 arg7 harg7 _ _ k)))
    (fun p => ∀ x : p.1.shape.Idx, p.2 x = pairBlock x2 x3 (p.1.emb x))
    (fun k => piece2_ok arg4 harg4 arg5 harg5 x2 x3 k) _ le_rfl

end AtIdeal2

end Cert.KernelIdeal.BlockAt

end
-- ==== Proof.ArrayAt.lean ====
/-
  From blocks to the arrays, on the kernel side, at the extended reals.

  The grid has 4 x 4 points (i, j).  At a point the body is handed rows 128 i .. 128 i + 127 and rows
  128 j .. 128 j + 127 of an argument (windows 0, 1 for the first argument, 2, 3 for the second) and leaves in each
  result buffer a 128 x 128 block whose entry (r, q) is the sum over the 512 columns k of the smooth absolute value of
  (first block) (r, k) - (second block) (q, k).  That fact about the body is taken here as a hypothesis (hblk4, hblk5).
  A block's element (r, k) sits in its array at row (block index) * 128 + r, column k; the result's block (i, j) is
  written back at rows 128 i .., columns 128 j ..; so what a point writes back is its block of the matrix of pair
  losses of the argument, and since every point writes back and the sixteen blocks tile the 512 x 512 array — the
  index (a, b) is in block (a / 128, b / 128) — each result array ends holding the pair losses of its argument.
-/
import proofs.«148350_j43739946942958_2_alg».proof.Proof.FrameData
import proofs.«148350_j43739946942958_2_alg».proof.Proof.Spec
import Idealize.ShloMosaic.Lib.ValueIdx
import Idealize.ShloMosaic.Lib.Pipeline.Value

noncomputable section

namespace Cert.KernelIdeal.ArrayAt

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ)

/-! ## The index maps over the grid -/

/-- The printed index maps, decided over the sixteen points: at a point with result block (i, j), windows 0 and 2 are
    at row block i and windows 1 and 3 at row block j of their arguments, all at column block 0; the second result's
    block is the first's; both block coordinates are at most 3. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_5.index t (0 : Fin 2) = win0_4.index t (0 : Fin 2) ∧ win0_5.index t (1 : Fin 2) = win0_4.index t (1 : Fin 2)
    ∧ win0_4.index t (0 : Fin 2) ≤ 3 ∧ win0_4.index t (1 : Fin 2) ≤ 3 :=
  (by decide +kernel : ∀ t : Fin grid0.N, _)

/-- Every block (i, j) of the 4 x 4 blocks of a result is some point's. -/
theorem idx_onto : ∀ (q0 q1 : Fin 4), ∃ t : Fin cfg0.N, win0_4.index t = ![q0.val, q1.val] :=
  (by decide +kernel : ∀ (q0 q1 : Fin 4), ∃ t : Fin grid0.N, win0_4.index t = ![q0.val, q1.val])

/-! ## The input blocks, read where their rectangles say -/

/-- Window 0's block at a point, read at (r, k), is the first argument at row 128 * (the point's row block) + r, column k. -/
theorem iblk0_at (c : Dev nD) (t : Fin cfg0.N) (r : Fin 128) (k : Fin 512) (a : Fin 512)
    (ha : a.val = win0_4.index t (0 : Fin 2) * 128 + r.val) :
    (iblk m c 0 t : Vec Ideal S128x512 .f32) (ValueIdx.ix2 r k)
      = (V m c main_arg0 : S512x512.Idx → EReal) (ValueIdx.ix2 a k) := by
  obtain ⟨e00, e01, e10, e11, e20, e21, e30, e31, -⟩ := idx_facts t
  unfold iblk
  rw [View.read_apply]
  show (V m c main_arg0 : S512x512.Idx → EReal) _ = _
  refine congrArg (V m c main_arg0 : S512x512.Idx → EReal) (funext fun d => Fin.ext ?_)
  match d with
  | ⟨0, _⟩ => show win0_0.index t (0 : Fin 2) * 128 + 1 * r.val = a.val; omega
  | ⟨1, _⟩ => show win0_0.index t (1 : Fin 2) * 512 + 1 * k.val = k.val; omega

/-- Window 1's block at a point, read at (r, k), is the first argument at row 128 * (the point's column block) + r, column k. -/
theorem iblk1_at (c : Dev nD) (t : Fin cfg0.N) (r : Fin 128) (k : Fin 512) (a : Fin 512)
    (ha : a.val = win0_4.index t (1 : Fin 2) * 128 + r.val) :
    (iblk m c 1 t : Vec Ideal S128x512 .f32) (ValueIdx.ix2 r k)
      = (V m c main_arg0 : S512x512.Idx → EReal) (ValueIdx.ix2 a k) := by
  obtain ⟨e00, e01, e10, e11, e20, e21, e30, e31, -⟩ := idx_facts t
  unfold iblk
  rw [View.read_apply]
  show (V m c main_arg0 : S512x512.Idx → EReal) _ = _
  refine congrArg (V m c main_arg0 : S512x512.Idx → EReal) (funext fun d => Fin.ext ?_)
  match d with
  | ⟨0, _⟩ => show win0_1.index t (0 : Fin 2) * 128 + 1 * r.val = a.val; omega
  | ⟨1, _⟩ => show win0_1.index t (1 : Fin 2) * 512 + 1 * k.val = k.val; omega

/-- Window 2's block at a point, read at (r, k), is the second argument at row 128 * (the point's row block) + r, column k. -/
theorem iblk2_at (c : Dev nD) (t : Fin cfg0.N) (r : Fin 128) (k : Fin 512) (a : Fin 512)
    (ha : a.val = win0_4.index t (0 : Fin 2) * 128 + r.val) :
    (iblk m c 2 t : Vec Ideal S128x512 .f32) (ValueIdx.ix2 r k)
      = (V m c main_arg1 : S512x512.Idx → EReal) (ValueIdx.ix2 a k) := by
  obtain ⟨e00, e01, e10, e11, e20, e21, e30, e31, -⟩ := idx_facts t
  unfold iblk
  rw [View.read_apply]
  show (V m c main_arg1 : S512x512.Idx → EReal) _ = _
  refine congrArg (V m c main_arg1 : S512x512.Idx → EReal) (funext fun d => Fin.ext ?_)
  match d with
  | ⟨0, _⟩ => show win0_2.index t (0 : Fin 2) * 128 + 1 * r.val = a.val; omega
  | ⟨1, _⟩ => show win0_2.index t (1 : Fin 2) * 512 + 1 * k.val = k.val; omega

/-- Window 3's block at a point, read at (r, k), is the second argument at row 128 * (the point's column block) + r, column k. -/
theorem iblk3_at (c : Dev nD) (t : Fin cfg0.N) (r : Fin 128) (k : Fin 512) (a : Fin 512)
    (ha : a.val = win0_4.index t (1 : Fin 2) * 128 + r.val) :
    (iblk m c 3 t : Vec Ideal S128x512 .f32) (ValueIdx.ix2 r k)
      = (V m c main_arg1 : S512x512.Idx → EReal) (ValueIdx.ix2 a k) := by
  obtain ⟨e00, e01, e10, e11, e20, e21, e30, e31, -⟩ := idx_facts t
  unfold iblk
  rw [View.read_apply]
  show (V m c main_arg1 : S512x512.Idx → EReal) _ = _
  refine congrArg (V m c main_arg1 : S512x512.Idx → EReal) (funext fun d => Fin.ext ?_)
  match d with
  | ⟨0, _⟩ => show win0_3.index t (0 : Fin 2) * 128 + 1 * r.val = a.val; omega
  | ⟨1, _⟩ => show win0_3.index t (1 : Fin 2) * 512 + 1 * k.val = k.val; omega

/-! ## The first result -/

/-- Where an element (r, q) of result window 4's block at a point sits in the 512 x 512 array: a block's coordinate
    is the block index times 128 plus the coordinate inside the block. -/
theorem emb4 (t : Fin cfg0.N) (r q : Fin 128) (a b : Fin 512)
    (ha : a.val = win0_4.index t (0 : Fin 2) * 128 + r.val) (hb : b.val = win0_4.index t (1 : Fin 2) * 128 + q.val) :
    ((cfg0.win 4).blk t).view.emb (ValueIdx.ix2 r q) = (ValueIdx.ix2 a b : S512x512.Idx) := by
  obtain ⟨-, -, -, -, -, -, -, -, e50, e51, -⟩ := idx_facts t
  refine funext fun d => Fin.ext ?_
  match d with
  | ⟨0, _⟩ => show win0_4.index t (0 : Fin 2) * 128 + 1 * r.val = a.val; omega
  | ⟨1, _⟩ => show win0_4.index t (1 : Fin 2) * 128 + 1 * q.val = b.val; omega

/-- What the body leaves in result window 4's buffer at a point, at (r, q), is the pair loss of the first argument at
    the element's place in the array: the rows 128 i + r and 128 j + q, summed over the columns. -/
theorem flushed4_at (hblk4 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk4 (F := Ideal) c i arg2 harg2 arg3 harg3 arg4 harg4 arg5 harg5 arg6 harg6 arg7 harg7 x0 x1 x2 x3 (ValueIdx.ix2 r q)
      = ∑ k : Fin 512, Cert.Spec.hub (x0 (ValueIdx.ix2 r k) - x1 (ValueIdx.ix2 q k)))
    (c : Dev nD) (t : Fin cfg0.N) (r q : Fin 128) :
    outAt4 (F := Ideal) m c t (ValueIdx.ix2 r q)
      = ((cfg0.win 4).blk t).view.read (Elt Ideal) (Cert.Spec.pairLoss (V m c main_arg0)) (ValueIdx.ix2 r q) := by
  obtain ⟨-, -, -, -, -, -, -, -, -, -, b0, b1⟩ := idx_facts t
  have ha : win0_4.index t (0 : Fin 2) * 128 + r.val < 512 := by have := r.isLt; omega
  have hb : win0_4.index t (1 : Fin 2) * 128 + q.val < 512 := by have := q.isLt; omega
  rw [View.read_apply, emb4 t r q ⟨_, ha⟩ ⟨_, hb⟩ rfl rfl]
  unfold outAt4
  refine (hblk4 c (grid0.coords t) (ms0 t) (hs0 t) (ms1 t) (hs1 t) (ms2 t) (hs2 t) (ms3 t) (hs3 t) (ms4 t) (hs4 t)
    (ms5 t) (hs5 t) (iblk m c 0 t) (iblk m c 1 t) (iblk m c 2 t) (iblk m c 3 t) r q).trans ?_
  show _ = Cert.Spec.pairLossAt (V m c main_arg0) ⟨_, ha⟩ ⟨_, hb⟩
  unfold Cert.Spec.pairLossAt
  refine Finset.sum_congr rfl fun k _ => ?_
  rw [iblk0_at m c t r k ⟨_, ha⟩ rfl, iblk1_at m c t q k ⟨_, hb⟩ rfl]

/-- What a point writes back of result window 4 is its block of the pair losses of the first argument. -/
theorem flushed4_eq (hblk4 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk4 (F := Ideal) c i arg2 harg2 arg3 harg3 arg4 harg4 arg5 harg5 arg6 harg6 arg7 harg7 x0 x1 x2 x3 (ValueIdx.ix2 r q)
      = ∑ k : Fin 512, Cert.Spec.hub (x0 (ValueIdx.ix2 r k) - x1 (ValueIdx.ix2 q k)))
    (c : Dev nD) (t : Fin cfg0.N) :
    (dat (F := Ideal) m c).flushed 4 t
      = ((cfg0.win 4).blk t).view.read (Elt Ideal) (Cert.Spec.pairLoss (V m c main_arg0)) := by
  show (cfg0.win 4).cut (grid0.coords t) ((dat (F := Ideal) m c).after 4 t) = _
  rw [after4]
  funext j
  obtain ⟨r, q, rfl⟩ : ∃ (r q : Fin 128), j = ValueIdx.ix2 r q := ⟨j 0, j 1, ValueIdx.eq_ix2 j⟩
  exact flushed4_at m hblk4 c t r q

/-- An index of the array is in a point's block of result window 4 iff each coordinate is in the block's range. -/
theorem mem_blk4 (t : Fin cfg0.N) (i : S512x512.Idx) :
    i ∈ ((cfg0.win 4).blk t).view.set
      ↔ ∀ a : Fin 2, win0_4.index t a * S128x128.size a ≤ (i a).val ∧ (i a).val < win0_4.index t a * S128x128.size a + S128x128.size a := by
  show i ∈ ((View.whole main_v0_0).slice (win0_4.rect t)).set ↔ _
  rw [View.set_slice_whole, Rect.mem_set_unit]
  exact Iff.rfl

/-- The sixteen blocks of result window 4 cover its array: (a, b) is in the block (a / 128, b / 128). -/
theorem cover_arr4 (i : S512x512.Idx) :
    ∃ t : Fin cfg0.N, (cfg0.win 4).flush t = true ∧ i ∈ ((cfg0.win 4).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win0_4.index t (0 : Fin 2) = (i 0).val / 128 := congrFun ht 0
  have q1 : win0_4.index t (1 : Fin 2) = (i 1).val / 128 := congrFun ht 1
  obtain ⟨-, -, -, -, -, -, -, -, e50, e51, -⟩ := idx_facts t
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 128 ≤ (i 1).val ∧ (i 1).val < win0_4.index t (1 : Fin 2) * 128 + 128; omega

/-- The first result array after the sixteen points holds the pair losses of the first argument. -/
theorem final4 (hblk4 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk4 (F := Ideal) c i arg2 harg2 arg3 harg3 arg4 harg4 arg5 harg5 arg6 harg6 arg7 harg7 x0 x1 x2 x3 (ValueIdx.ix2 r q)
      = ∑ k : Fin 512, Cert.Spec.hub (x0 (ValueIdx.ix2 r k) - x1 (ValueIdx.ix2 q k)))
    (c : Dev nD) :
    (dat (F := Ideal) m c).arrAt 4 cfg0.N = Cert.Spec.pairLoss (V m c main_arg0) :=
  (dat (F := Ideal) m c).arrAt_eq_of_cover 4 (Cert.Spec.pairLoss (V m c main_arg0))
    (fun t _ => flushed4_eq m hblk4 c t) (cover_arr4)

/-! ## The second result -/

/-- Where an element (r, q) of result window 5's block at a point sits in the 512 x 512 array: a block's coordinate
    is the block index times 128 plus the coordinate inside the block. -/
theorem emb5 (t : Fin cfg0.N) (r q : Fin 128) (a b : Fin 512)
    (ha : a.val = win0_4.index t (0 : Fin 2) * 128 + r.val) (hb : b.val = win0_4.index t (1 : Fin 2) * 128 + q.val) :
    ((cfg0.win 5).blk t).view.emb (ValueIdx.ix2 r q) = (ValueIdx.ix2 a b : S512x512.Idx) := by
  obtain ⟨-, -, -, -, -, -, -, -, e50, e51, -⟩ := idx_facts t
  refine funext fun d => Fin.ext ?_
  match d with
  | ⟨0, _⟩ => show win0_5.index t (0 : Fin 2) * 128 + 1 * r.val = a.val; omega
  | ⟨1, _⟩ => show win0_5.index t (1 : Fin 2) * 128 + 1 * q.val = b.val; omega

/-- What the body leaves in result window 5's buffer at a point, at (r, q), is the pair loss of the second argument at
    the element's place in the array: the rows 128 i + r and 128 j + q, summed over the columns. -/
theorem flushed5_at (hblk5 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk5 (F := Ideal) c i arg2 harg2 arg3 harg3 arg4 harg4 arg5 harg5 arg6 harg6 arg7 harg7 x0 x1 x2 x3 (ValueIdx.ix2 r q)
      = ∑ k : Fin 512, Cert.Spec.hub (x2 (ValueIdx.ix2 r k) - x3 (ValueIdx.ix2 q k)))
    (c : Dev nD) (t : Fin cfg0.N) (r q : Fin 128) :
    outAt5 (F := Ideal) m c t (ValueIdx.ix2 r q)
      = ((cfg0.win 5).blk t).view.read (Elt Ideal) (Cert.Spec.pairLoss (V m c main_arg1)) (ValueIdx.ix2 r q) := by
  obtain ⟨-, -, -, -, -, -, -, -, -, -, b0, b1⟩ := idx_facts t
  have ha : win0_4.index t (0 : Fin 2) * 128 + r.val < 512 := by have := r.isLt; omega
  have hb : win0_4.index t (1 : Fin 2) * 128 + q.val < 512 := by have := q.isLt; omega
  rw [View.read_apply, emb5 t r q ⟨_, ha⟩ ⟨_, hb⟩ rfl rfl]
  unfold outAt5
  refine (hblk5 c (grid0.coords t) (ms0 t) (hs0 t) (ms1 t) (hs1 t) (ms2 t) (hs2 t) (ms3 t) (hs3 t) (ms4 t) (hs4 t)
    (ms5 t) (hs5 t) (iblk m c 0 t) (iblk m c 1 t) (iblk m c 2 t) (iblk m c 3 t) r q).trans ?_
  show _ = Cert.Spec.pairLossAt (V m c main_arg1) ⟨_, ha⟩ ⟨_, hb⟩
  unfold Cert.Spec.pairLossAt
  refine Finset.sum_congr rfl fun k _ => ?_
  rw [iblk2_at m c t r k ⟨_, ha⟩ rfl, iblk3_at m c t q k ⟨_, hb⟩ rfl]

/-- What a point writes back of result window 5 is its block of the pair losses of the second argument. -/
theorem flushed5_eq (hblk5 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk5 (F := Ideal) c i arg2 harg2 arg3 harg3 arg4 harg4 arg5 harg5 arg6 harg6 arg7 harg7 x0 x1 x2 x3 (ValueIdx.ix2 r q)
      = ∑ k : Fin 512, Cert.Spec.hub (x2 (ValueIdx.ix2 r k) - x3 (ValueIdx.ix2 q k)))
    (c : Dev nD) (t : Fin cfg0.N) :
    (dat (F := Ideal) m c).flushed 5 t
      = ((cfg0.win 5).blk t).view.read (Elt Ideal) (Cert.Spec.pairLoss (V m c main_arg1)) := by
  show (cfg0.win 5).cut (grid0.coords t) ((dat (F := Ideal) m c).after 5 t) = _
  rw [after5]
  funext j
  obtain ⟨r, q, rfl⟩ : ∃ (r q : Fin 128), j = ValueIdx.ix2 r q := ⟨j 0, j 1, ValueIdx.eq_ix2 j⟩
  exact flushed5_at m hblk5 c t r q

/-- An index of the array is in a point's block of result window 5 iff each coordinate is in the block's range. -/
theorem mem_blk5 (t : Fin cfg0.N) (i : S512x512.Idx) :
    i ∈ ((cfg0.win 5).blk t).view.set
      ↔ ∀ a : Fin 2, win0_5.index t a * S128x128.size a ≤ (i a).val ∧ (i a).val < win0_5.index t a * S128x128.size a + S128x128.size a := by
  show i ∈ ((View.whole main_v0_1).slice (win0_5.rect t)).set ↔ _
  rw [View.set_slice_whole, Rect.mem_set_unit]
  exact Iff.rfl

/-- The sixteen blocks of result window 5 cover its array: (a, b) is in the block (a / 128, b / 128). -/
theorem cover_arr5 (i : S512x512.Idx) :
    ∃ t : Fin cfg0.N, (cfg0.win 5).flush t = true ∧ i ∈ ((cfg0.win 5).blk t).view.set := by
  have hi0 : (i 0).val < 512 := (i 0).isLt
  have hi1 : (i 1).val < 512 := (i 1).isLt
  obtain ⟨t, ht⟩ := idx_onto ⟨(i 0).val / 128, by omega⟩ ⟨(i 1).val / 128, by omega⟩
  have q0 : win0_4.index t (0 : Fin 2) = (i 0).val / 128 := congrFun ht 0
  have q1 : win0_4.index t (1 : Fin 2) = (i 1).val / 128 := congrFun ht 1
  obtain ⟨-, -, -, -, -, -, -, -, e50, e51, -⟩ := idx_facts t
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- The second result array after the sixteen points holds the pair losses of the second argument. -/
theorem final5 (hblk5 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk5 (F := Ideal) c i arg2 harg2 arg3 harg3 arg4 harg4 arg5 harg5 arg6 harg6 arg7 harg7 x0 x1 x2 x3 (ValueIdx.ix2 r q)
      = ∑ k : Fin 512, Cert.Spec.hub (x2 (ValueIdx.ix2 r k) - x3 (ValueIdx.ix2 q k)))
    (c : Dev nD) :
    (dat (F := Ideal) m c).arrAt 5 cfg0.N = Cert.Spec.pairLoss (V m c main_arg1) :=
  (dat (F := Ideal) m c).arrAt_eq_of_cover 5 (Cert.Spec.pairLoss (V m c main_arg1))
    (fun t _ => flushed5_eq m hblk5 c t) (cover_arr5)

end Cert.KernelIdeal.ArrayAt

end
-- ==== Proof.KernelResult.lean ====
/-
  The kernel's result at the extended reals.

  After the region the two result arrays are what the write-backs left.  The eighteen host operations that follow
  flatten each array to 262144 entries, divide each by its mean (its sum over 262144), subtract, take absolute values
  and sum: composed, they are the closing stretch the specification shares with the reference, applied to the two
  result arrays — its arithmetic is never opened.  With the two arrays equal to the pair losses of the two arguments
  (from the body's block facts, taken as hypotheses), the result buffer holds the specification's result of the
  arguments as launched.
-/
import proofs.«148350_j43739946942958_2_alg».proof.Proof.FrameRun
import proofs.«148350_j43739946942958_2_alg».proof.Proof.ArrayAt
import proofs.«148350_j43739946942958_2_alg».proof.Proof.Spec
import Idealize.ShloMosaic.Lib.StableHlo.Run

noncomputable section

namespace Cert.KernelIdeal.Result

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The eighteen host operations after the region — flatten both results, the mean of each, divide, subtract,
    absolute value, sum — compose to the shared closing stretch applied to the two result arrays as the region
    leaves them. -/
theorem tail_eq (c : Dev nD) :
    W3 (F := Ideal) m c main_v13
      = Cert.Spec.tail Cert.KernelIdeal.Facts₀.shapeCasts_S512x512_S262144 Cert.KernelIdeal.Facts₀.reducesTo_S262144_S_d0
          Cert.KernelIdeal.Facts₀.h_S_ Cert.KernelIdeal.Facts₀.bcast_S_S262144
          ((dat (F := Ideal) m c).arrAt 4 cfg0.N) ((dat (F := Ideal) m c).arrAt 5 cfg0.N) := by
  show StableHlo.after hostOps1 (W2 (F := Ideal) m c) (Proc.devRef .tc main_v13) = _
  after_results
  rw [W2_v0_0, W2_v0_1]
  unfold Cert.Spec.tail
  rfl

/-- The kernel's result buffer after the host operations is the specification's result of the two arguments as
    launched: the two result arrays are the pair losses of the arguments (given the body's block facts), and the host
    operations are the shared closing stretch. -/
theorem result_eq
    (hblk4 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk4 (F := Ideal) c i arg2 harg2 arg3 harg3 arg4 harg4 arg5 harg5 arg6 harg6 arg7 harg7 x0 x1 x2 x3 (ValueIdx.ix2 r q)
      = ∑ k : Fin 512, Cert.Spec.hub (x0 (ValueIdx.ix2 r k) - x1 (ValueIdx.ix2 q k)))
    (hblk5 : ∀ (c : Dev nD) (i : grid0.Coords)
    (arg2 : Memref sig .tc .vmem S128x512 .f32) (harg2 : arg2.IsWhole) (arg3 : Memref sig .tc .vmem S128x512 .f32) (harg3 : arg3.IsWhole)
    (arg4 : Memref sig .tc .vmem S128x512 .f32) (harg4 : arg4.IsWhole) (arg5 : Memref sig .tc .vmem S128x512 .f32) (harg5 : arg5.IsWhole)
    (arg6 : Memref sig .tc .vmem S128x128 .f32) (harg6 : arg6.IsWhole) (arg7 : Memref sig .tc .vmem S128x128 .f32) (harg7 : arg7.IsWhole)
    (x0 x1 x2 x3 : Vec Ideal S128x512 .f32) (r q : Fin 128),
    outBlk5 (F := Ideal) c i arg2 harg2 arg3 harg3 arg4 harg4 arg5 harg5 arg6 harg6 arg7 harg7 x0 x1 x2 x3 (ValueIdx.ix2 r q)
      = ∑ k : Fin 512, Cert.Spec.hub (x2 (ValueIdx.ix2 r k) - x3 (ValueIdx.ix2 q k)))
    (c : Dev nD) :
    W3 (F := Ideal) m c main_v13
      = Cert.Spec.result Cert.KernelIdeal.Facts₀.shapeCasts_S512x512_S262144 Cert.KernelIdeal.Facts₀.reducesTo_S262144_S_d0
          Cert.KernelIdeal.Facts₀.h_S_ Cert.KernelIdeal.Facts₀.bcast_S_S262144
          (m ((c.tc : Thread nD τ).loc main_arg0)) (m ((c.tc : Thread nD τ).loc main_arg1)) := by
  rw [tail_eq, Cert.KernelIdeal.ArrayAt.final4 m hblk4 c, Cert.KernelIdeal.ArrayAt.final5 m hblk5 c]
  rfl

end Cert.KernelIdeal.Result

end
-- ==== Proof.RefSide.lean ====
/-
  The reference side: the reference program's result, at the extended reals, is the specification's result of its
  two arguments.

  Three steps. (1) The pointwise law, at EVERY extended real d: with a = max d (-d), the reference's choice between
  (1/2 * d) * d where a < 1 and a - 1/2 otherwise equals the product form min a 1 * (a - 1/2 * min a 1). At a real d
  both are d^2 / 2 below 1 (there min a 1 = a and a * (a - a/2) = a^2 / 2 = d^2 / 2) and |d| - 1/2 from 1 on (there
  min a 1 = 1); at either infinity a = +∞, the comparison fails, and both sides are +∞. (2) The reference's two
  512 x 512 matrices of sums over the columns are the pair losses: its entry (i, j, k) before the sum reads the
  argument at (i, k) and at (j, k), and the sum's initial value is the zero word. (3) The closing operations of the
  reference are, term for term, the shared closing stretch applied to those two matrices; its arithmetic is never
  opened.
-/
import proofs.«148350_j43739946942958_2_alg».proof.Proof.Gen.ReferenceIdeal.Read
import proofs.«148350_j43739946942958_2_alg».proof.Proof.Spec
import Idealize.ShloMosaic.PureOps.Ideal
import Idealize.ShloMosaic.PureOps.Ideal.Laws
import Idealize.ShloMosaic.Lib.ValueIdx

noncomputable section

namespace Cert.RefSide

open Idealize.ShloMosaic

/-! ## The two float words -/

/-- The word 0x3F800000 denotes the real 1. -/
theorem ofBits_one : Ideal.ofBits .f32 0x3F800000#32 = 1 := by
  simp [Ideal.ofBits, Ideal.ieee, -EReal.coe_mul]; norm_num

/-- The word 0x3F000000 denotes the real 1/2. -/
theorem ofBits_half : Ideal.ofBits .f32 0x3F000000#32 = ((1 / 2 : ℝ) : EReal) := by
  simp [Ideal.ofBits, Ideal.ieee, -EReal.coe_mul]; norm_num

/-! ## The pointwise law -/

/-- A select on the comparison "less than" is the `if` on the order of the extended reals. -/
theorem select_cmp_olt {α : Type} (x y : EReal) (A B : α) :
    Scalar.select (Ideal.cmp .olt x y) A B = if x < y then A else B := by
  unfold Ideal.cmp Scalar.select
  by_cases h : x < y <;> simp [h]

/-- The embedding of the reals commutes with the maximum. -/
theorem coe_max (a b : ℝ) : ((max a b : ℝ) : EReal) = max (a : EReal) (b : EReal) :=
  EReal.coe_strictMono.monotone.map_max

/-- The embedding of the reals commutes with the minimum. -/
theorem coe_min (a b : ℝ) : ((min a b : ℝ) : EReal) = min (a : EReal) (b : EReal) :=
  EReal.coe_strictMono.monotone.map_min

/-- The absolute value of a real, among the extended reals. -/
theorem max_neg_coe (r : ℝ) : max (r : EReal) (-(r : EReal)) = ((|r| : ℝ) : EReal) := by
  rw [← EReal.coe_neg, ← coe_max, abs_eq_max_neg]

/-- The product form at a real d: min |d| 1 * (|d| - 1/2 * min |d| 1), computed among the reals. -/
theorem hub_coe (r : ℝ) :
    Cert.Spec.hub (r : EReal) = ((min |r| 1 * (|r| - 1 / 2 * min |r| 1) : ℝ) : EReal) := by
  unfold Cert.Spec.hub
  rw [ofBits_one, ofBits_half, max_neg_coe, ← EReal.coe_one, ← coe_min, ← EReal.coe_mul, ← EReal.coe_sub,
    ← EReal.coe_mul]

/-- The reference's branch at a real d: d^2/2 where |d| < 1, |d| - 1/2 from 1 on, computed among the reals. -/
theorem branch_coe (r : ℝ) :
    Scalar.select (Ideal.cmp .olt (max (r : EReal) (-(r : EReal))) (Ideal.ofBits .f32 0x3F800000#32))
        (Ideal.ofBits .f32 0x3F000000#32 * (r : EReal) * (r : EReal))
        (max (r : EReal) (-(r : EReal)) - Ideal.ofBits .f32 0x3F000000#32)
      = ((if |r| < 1 then 1 / 2 * r * r else |r| - 1 / 2 : ℝ) : EReal) := by
  rw [select_cmp_olt, ofBits_one, ofBits_half, max_neg_coe, ← EReal.coe_one,
    ← EReal.coe_mul, ← EReal.coe_mul, ← EReal.coe_sub]
  by_cases h : |r| < 1
  · rw [if_pos (EReal.coe_lt_coe_iff.mpr h), if_pos h]
  · rw [if_neg (fun h' => h (EReal.coe_lt_coe_iff.mp h')), if_neg h]

/-- Among the reals the two forms agree: both are d^2/2 below 1 and |d| - 1/2 from 1 on. -/
theorem real_law (r : ℝ) :
    (if |r| < 1 then 1 / 2 * r * r else |r| - 1 / 2) = min |r| 1 * (|r| - 1 / 2 * min |r| 1) := by
  split_ifs with h
  · rw [min_eq_left h.le]
    have : |r| * |r| = r * r := abs_mul_abs_self r
    linear_combination (-1 / 2 : ℝ) * this
  · rw [min_eq_right (not_lt.mp h)]; ring

/-- The pointwise law at every extended real d: the reference's select between d^2/2 (where |d| < 1) and
    |d| - 1/2 is the product form. At an infinity |d| is +∞, the comparison fails and both sides are +∞. -/
theorem branch_eq_hub (d : EReal) :
    Scalar.select (Ideal.cmp .olt (max d (-d)) (Ideal.ofBits .f32 0x3F800000#32))
        (Ideal.ofBits .f32 0x3F000000#32 * d * d)
        (max d (-d) - Ideal.ofBits .f32 0x3F000000#32)
      = Cert.Spec.hub d := by
  induction d using EReal.rec with
  | bot =>
    unfold Cert.Spec.hub
    rw [select_cmp_olt, ofBits_one, ofBits_half]
    simp
  | coe r => rw [branch_coe, hub_coe, real_law]
  | top =>
    unfold Cert.Spec.hub
    rw [select_cmp_olt, ofBits_one, ofBits_half]
    simp

/-! ## The pair sums -/

open Cert.ReferenceIdeal Cert.ReferenceIdeal.Read

/-- The teacher's difference at (i, j, k) is x i k - x j k. -/
theorem v4_at (x0 : (⟨S512x512, .f32⟩ : BufTy).Contents (Elt Ideal)) (j : S512x512x512.Idx) :
    val_main_v4 (F := Ideal) x0 j = x0 (ValueIdx.ix2 (j 0) (j 2)) - x0 (ValueIdx.ix2 (j 1) (j 2)) := by
  rw [val_main_v4_apply, val_main_v2_apply, val_main_v3_apply, val_main_v0_apply, val_main_v1_apply]
  have e0 : idx_main_v0 (idx_main_v2 j) = ValueIdx.ix2 (j 0) (j 2) :=
    funext fun a => Fin.ext (by match a with | ⟨0, _⟩ => rfl | ⟨1, _⟩ => rfl)
  have e1 : idx_main_v1 (idx_main_v3 j) = ValueIdx.ix2 (j 1) (j 2) :=
    funext fun a => Fin.ext (by match a with | ⟨0, _⟩ => rfl | ⟨1, _⟩ => rfl)
  rw [e0, e1]; rfl

/-- The teacher's selected value at (i, j, k) is the smooth absolute value of x i k - x j k. -/
theorem v13_at (x0 : (⟨S512x512, .f32⟩ : BufTy).Contents (Elt Ideal)) (j : S512x512x512.Idx) :
    val_main_v13 (F := Ideal) x0 j
      = Cert.Spec.hub (x0 (ValueIdx.ix2 (j 0) (j 2)) - x0 (ValueIdx.ix2 (j 1) (j 2))) := by
  rw [val_main_v13_apply, val_main_v7_apply, val_main_v10_apply, val_main_v12_apply, val_main_v9_apply,
    val_main_v5_apply, val_main_v6_apply, val_main_v8_apply, val_main_v11_apply, val_main_cst_apply,
    val_main_cst_0_apply, val_main_cst_1_apply, v4_at]
  exact branch_eq_hub _

/-- The teacher's 512 x 512 sums are the pair losses of the first argument. -/
theorem v14_eq (x0 : (⟨S512x512, .f32⟩ : BufTy).Contents (Elt Ideal)) :
    val_main_v14 (F := Ideal) x0 = Cert.Spec.pairLoss x0 := by
  funext i
  rw [val_main_v14_apply, val_main_cst_2_apply]
  show Ideal.ofBits .f32 0x00000000#32 + _ = _
  rw [Ideal.ofBits_zero_f32, zero_add]
  unfold Cert.Spec.pairLoss Cert.Spec.pairLossAt
  refine Finset.sum_congr rfl fun k _ => ?_
  rw [v13_at]
  rfl

/-- The student's difference at (i, j, k) is x i k - x j k. -/
theorem v24_at (x1 : (⟨S512x512, .f32⟩ : BufTy).Contents (Elt Ideal)) (j : S512x512x512.Idx) :
    val_main_v24 (F := Ideal) x1 j = x1 (ValueIdx.ix2 (j 0) (j 2)) - x1 (ValueIdx.ix2 (j 1) (j 2)) := by
  rw [val_main_v24_apply, val_main_v22_apply, val_main_v23_apply, val_main_v20_apply, val_main_v21_apply]
  have e0 : idx_main_v20 (idx_main_v22 j) = ValueIdx.ix2 (j 0) (j 2) :=
    funext fun a => Fin.ext (by match a with | ⟨0, _⟩ => rfl | ⟨1, _⟩ => rfl)
  have e1 : idx_main_v21 (idx_main_v23 j) = ValueIdx.ix2 (j 1) (j 2) :=
    funext fun a => Fin.ext (by match a with | ⟨0, _⟩ => rfl | ⟨1, _⟩ => rfl)
  rw [e0, e1]; rfl

/-- The student's selected value at (i, j, k) is the smooth absolute value of x i k - x j k. -/
theorem v33_at (x1 : (⟨S512x512, .f32⟩ : BufTy).Contents (Elt Ideal)) (j : S512x512x512.Idx) :
    val_main_v33 (F := Ideal) x1 j
      = Cert.Spec.hub (x1 (ValueIdx.ix2 (j 0) (j 2)) - x1 (ValueIdx.ix2 (j 1) (j 2))) := by
  rw [val_main_v33_apply, val_main_v27_apply, val_main_v30_apply, val_main_v32_apply, val_main_v29_apply,
    val_main_v25_apply, val_main_v26_apply, val_main_v28_apply, val_main_v31_apply, val_main_cst_5_apply,
    val_main_cst_6_apply, val_main_cst_7_apply, v24_at]
  exact branch_eq_hub _

/-- The student's 512 x 512 sums are the pair losses of the second argument. -/
theorem v34_eq (x1 : (⟨S512x512, .f32⟩ : BufTy).Contents (Elt Ideal)) :
    val_main_v34 (F := Ideal) x1 = Cert.Spec.pairLoss x1 := by
  funext i
  rw [val_main_v34_apply, val_main_cst_8_apply]
  show Ideal.ofBits .f32 0x00000000#32 + _ = _
  rw [Ideal.ofBits_zero_f32, zero_add]
  unfold Cert.Spec.pairLoss Cert.Spec.pairLossAt
  refine Finset.sum_congr rfl fun k _ => ?_
  rw [v33_at]
  rfl

/-! ## The closing stretch and the result -/

/-- The reference's closing operations — flatten, mean, divide, subtract, absolute value, sum — are the shared
    closing stretch applied to the two matrices of 512 x 512 sums. -/
theorem v42_eq_tail (x0 x1 : (⟨S512x512, .f32⟩ : BufTy).Contents (Elt Ideal)) :
    val_main_v42 (F := Ideal) x0 x1
      = Cert.Spec.tail Cert.ReferenceIdeal.Facts₀.shapeCasts_S512x512_S262144
          Cert.ReferenceIdeal.Facts₀.reducesTo_S262144_S_d0 Cert.ReferenceIdeal.Facts₀.h_S_
          Cert.ReferenceIdeal.Facts₀.bcast_S_S262144
          (val_main_v14 (F := Ideal) x0) (val_main_v34 (F := Ideal) x1) := rfl

/-- The reference's result is the specification's, as a function of its two arguments. -/
theorem ref_result (x0 x1 : (⟨S512x512, .f32⟩ : BufTy).Contents (Elt Ideal)) :
    val_main_v42 (F := Ideal) x0 x1
      = Cert.Spec.result Cert.ReferenceIdeal.Facts₀.shapeCasts_S512x512_S262144
          Cert.ReferenceIdeal.Facts₀.reducesTo_S262144_S_d0 Cert.ReferenceIdeal.Facts₀.h_S_
          Cert.ReferenceIdeal.Facts₀.bcast_S_S262144 x0 x1 := by
  rw [v42_eq_tail, v14_eq, v34_eq]; rfl

open Idealize.ShloMosaic.TcCoe Idealize.SL.Sem Idealize.ShloMosaic.StableHlo in
/-- The same through the run's own name for the result: at the two argument buffers of a device. -/
theorem res_result (m : (ℓ : Loc nD τ sig) → Buf (Elt Ideal) ℓ)
    (c : Dev nD) :
    Cert.ReferenceIdeal.Value.res_main_v42 (F := Ideal) m c
      = Cert.Spec.result Cert.ReferenceIdeal.Facts₀.shapeCasts_S512x512_S262144
          Cert.ReferenceIdeal.Facts₀.reducesTo_S262144_S_d0 Cert.ReferenceIdeal.Facts₀.h_S_
          Cert.ReferenceIdeal.Facts₀.bcast_S_S262144
          (m ((c.tc : Thread nD τ).loc main_arg0))
          (m ((c.tc : Thread nD τ).loc main_arg1)) := by
  rw [val_main_v42_eq, ref_result]

end Cert.RefSide

end
-- ==== Proof.lean ====
/-
  Two programs compute one number from two 512 x 512 matrices, a teacher and a student.

  For a matrix x, the pair loss of rows i and j is the sum over the 512 columns of the smooth absolute value
  (threshold 1) of x i k - x j k; the number is the L1 distance between the teacher's and the student's matrices of
  pair losses, each first divided by its own mean.

  The kernel computes each matrix of pair losses on a 4 x 4 grid of 128 x 128 blocks: at block (i, j) it holds rows
  128 i .. of the matrix (through one window) and rows 128 j .. of the same matrix (through a second window on the
  same array), and fills the block strip by strip, eight rows per trip of a counted loop, writing the smooth absolute
  value in the product form  min |d| 1 * (|d| - 1/2 * min |d| 1).  The reference forms all 512^3 differences at once and
  writes it by cases,  1/2 d d  where |d| < 1 and  |d| - 1/2  from 1 on.  The two forms agree at every extended real,
  so no finiteness is used; the sums over the columns are the same sums; and the closing stretch (flatten, divide by
  the mean, subtract, absolute value, sum) is the same text in both programs, applied to equal matrices.

  The frames: the kernel's @main is one region followed by eighteen host operations; its two windows per argument
  share an array, so the region is entered by dealing each argument's buffer to its two windows at half shares and
  left by joining them; the body is run once on arbitrary staging buffers, its two loops through their invariants.
  The same text serves the word-level program and its idealization. The reference's frame is its run with the result
  dropped. The ideal pass rewrote nothing, so the idealization claim is the trivial one.
-/
import proofs.«148350_j43739946942958_2_alg».proof.Defs
import proofs.«148350_j43739946942958_2_alg».proof.Proof.Gen.Kernel
import proofs.«148350_j43739946942958_2_alg».proof.Proof.Gen.KernelIdeal
import proofs.«148350_j43739946942958_2_alg».proof.Proof.Gen.ReferenceIdeal
import proofs.«148350_j43739946942958_2_alg».proof.Proof.Gen.ReferenceIdeal.Run
import proofs.«148350_j43739946942958_2_alg».proof.Proof.Gen.ReferenceIdeal.Read
import proofs.«148350_j43739946942958_2_alg».proof.Proof.Gen.Pre_finite_inputs
import proofs.«148350_j43739946942958_2_alg».proof.Proof.WFrameRun
import proofs.«148350_j43739946942958_2_alg».proof.Proof.FrameRun
import proofs.«148350_j43739946942958_2_alg».proof.Proof.BlockAt
import proofs.«148350_j43739946942958_2_alg».proof.Proof.KernelResult
import proofs.«148350_j43739946942958_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel runs and leaves its two arguments as launched. -/
theorem frame_k : @Cert.frame_Kernel Cert.Kernel.Gen.facts Cert.Pre_finite_inputs.Gen.facts :=
  fun m ρ _ => Cert.Kernel.Hand.frame m ρ

/-- So does its idealization. -/
theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end at the one function of the arguments: the kernel's result buffer holds the host
    operations' term over the two matrices of pair losses its region wrote, the reference's its composed term, and
    each is the specification's result of the argument matrices, which agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W3 (F := Ideal) m c Cert.KernelIdeal.main_v13, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  have hk := Cert.KernelIdeal.Result.result_eq m Cert.KernelIdeal.BlockAt.outBlk4_apply Cert.KernelIdeal.BlockAt.outBlk5_apply c
  have hr := Cert.RefSide.res_result m' c
  rw [(hagree c).1, (hagree c).2] at hr
  exact hr.trans hk.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
